-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S66048x1024 : Shape := ⟨2, ![66048, 1024]⟩
abbrev S8x1024x1024 : Shape := ⟨3, ![8, 1024, 1024]⟩
abbrev S_ : Shape := ⟨0, ![]⟩

class Facts : Prop where
  bcast_S_S66048x1024 : S_.BroadcastsInDim S66048x1024 (![] : Fin 0 → Fin S66048x1024.rank)
  reducesTo_S66048x1024_S_d0_1 : S66048x1024.ReducesTo [0, 1] S_
  h_S_ : 0 < S_.numel
  bcast_S_S8x1024x1024 : S_.BroadcastsInDim S8x1024x1024 (![] : Fin 0 → Fin S8x1024x1024.rank)
  reducesTo_S8x1024x1024_S_d0_1_2 : S8x1024x1024.ReducesTo [0, 1, 2] S_

variable [Facts]

def fn {F : FTy → Type} [FloatOps F] (main_arg0 : FVec F S66048x1024 .f32) (main_arg1 : FVec F S8x1024x1024 .f32) : IVec S_ 1 :=
  let main_v0 : FVec F S66048x1024 .f32 := Host.absf main_arg0
  let main_cst : FVec F S_ .f32 := constant S_ .f32 0x7F800000#32
  let main_v1 : FVec F S66048x1024 .f32 := broadcastInDim S66048x1024 ![] bcast_S_S66048x1024 main_cst
  let main_v2 : IVec S66048x1024 1 := cmpf .olt main_v0 main_v1
  let main_c : IVec S_ 1 := constantI S_ 1 1#1
  let main_v3 : IVec S_ 1 := (fun x v => Host.reduce IntOp.andi x v reducesTo_S66048x1024_S_d0_1 h_S_) main_v2 main_c
  let main_v4 : FVec F S8x1024x1024 .f32 := Host.absf main_arg1
  let main_cst_0 : FVec F S_ .f32 := constant S_ .f32 0x7F800000#32
  let main_v5 : FVec F S8x1024x1024 .f32 := broadcastInDim S8x1024x1024 ![] bcast_S_S8x1024x1024 main_cst_0
  let main_v6 : IVec S8x1024x1024 1 := cmpf .olt main_v4 main_v5
  let main_c_1 : IVec S_ 1 := constantI S_ 1 1#1
  let main_v7 : IVec S_ 1 := (fun x v => Host.reduce IntOp.andi x v reducesTo_S8x1024x1024_S_d0_1_2 h_S_) main_v6 main_c_1
  let main_v8 : IVec S_ 1 := andi main_v3 main_v7
  main_v8
-- ==== Kernel.lean ====
abbrev S66048x1024 : Shape := ⟨2, ![66048, 1024]⟩
abbrev S8x1024x1024 : Shape := ⟨3, ![8, 1024, 1024]⟩
abbrev S65 : Shape := ⟨1, ![65]⟩
abbrev S1024x1024 : Shape := ⟨2, ![1024, 1024]⟩
abbrev S1x1024x1024 : Shape := ⟨3, ![1, 1024, 1024]⟩
abbrev S1 : Shape := ⟨1, ![1]⟩

abbrev nBuf : Space → Nat
  | .hbm => 4
  | .vmem => 6
  | .smem => 1
  | _ => 0

abbrev bufTy : (tb : Table) → Fin (tcTables nBuf tb) → BufTy
  | .hbm, ⟨0, _⟩ => ⟨S66048x1024, .f32⟩
  | .hbm, ⟨1, _⟩ => ⟨S8x1024x1024, .f32⟩
  | .hbm, ⟨2, _⟩ => ⟨S8x1024x1024, .bf16⟩
  | .hbm, ⟨3, _⟩ => ⟨S66048x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .smem, ⟨0, _⟩ => ⟨S65, .i32⟩
  | _, _ => ⟨S66048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev main_call0_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![65], ![false]⟩

abbrev pre0 : Pipeline.Prefetch sig := ⟨1, ![main_call0_c.idx], fun | 0 => main_call0_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S65.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S65) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  numel1_S1 : S1.numel = 1
  inb_S1024x1024_S1024x1024_0_0 : ∀ a, (![0, 0] : Fin 2 → Nat) a + S1024x1024.size a ≤ S1024x1024.size a
  h_S1024x1024 : 0 < S1024x1024.numel
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  dot_S1024x1024_S1024x1024_S1024x1024_1_0_0_1_n_n_wf : DotDims.WF S1024x1024 S1024x1024 S1024x1024 [1] [0] [0] [1] [] []
  hrank0 : 0 < grid0.rank
  k0_off1_inb : ∀ i : grid0.Coords, ∀ a, (k0_off1 i) a + S1.size a ≤ S65.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1024x1024.size a < S66048x1024.size a
  hwx0_0 : ∀ i : grid0.Coords, EltTy.bits .f32 = 32 ∨ (Rect.unit (s := S66048x1024) (fun a => cc0_transform_0 i a * S1024x1024.size a) (fun a => (Pipeline.Clip.of (cc0_transform_0 i a) (S1024x1024.size a) (S66048x1024.size a)).extent (S1024x1024.size a)) fun a => Pipeline.Clip.inb (Pipeline.Clip.ok_of (hstart0_0 i a))).WholeWords (EltTy.packing .f32)
  hwxs0_0 : ∀ i : grid0.Coords, EltTy.bits .f32 = 32 ∨ (Rect.unit (s := S1024x1024) (fun _ => 0) (fun a => (Pipeline.Clip.of (cc0_transform_0 i a) (S1024x1024.size a) (S66048x1024.size a)).extent (S1024x1024.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x1024.size a < S66048x1024.size a
  hwx0_2 : ∀ i : grid0.Coords, EltTy.bits .f32 = 32 ∨ (Rect.unit (s := S66048x1024) (fun a => cc0_transform_2 i a * S1024x1024.size a) (fun a => (Pipeline.Clip.of (cc0_transform_2 i a) (S1024x1024.size a) (S66048x1024.size a)).extent (S1024x1024.size a)) fun a => Pipeline.Clip.inb (Pipeline.Clip.ok_of (hstart0_2 i a))).WholeWords (EltTy.packing .f32)
  hwxs0_2 : ∀ i : grid0.Coords, EltTy.bits .f32 = 32 ∨ (Rect.unit (s := S1024x1024) (fun _ => 0) (fun a => (Pipeline.Clip.of (cc0_transform_2 i a) (S1024x1024.size a) (S66048x1024.size a)).extent (S1024x1024.size a)) fun a => (Nat.zero_add _).trans_le (Pipeline.Clip.extent_le (Pipeline.Clip.ok_of (hstart0_2 i a)))).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev clip0_0 (i : grid0.Coords) : Fin S66048x1024.rank → Pipeline.Clip := fun a => Pipeline.Clip.of (cc0_transform_0 i a) (S1024x1024.size a) (S66048x1024.size a)
abbrev spec0_0 : Pipeline.WinSpec sig grid0.rank :=
  Pipeline.WinSpec.ofSpec (Memref.whole main_arg0) S1024x1024.size reads0_0 false false 2 stage0_0 sem0_0 nbuf0_0 hstage0_0

abbrev spec0_1 : Pipeline.WinSpec sig grid0.rank :=
  Pipeline.WinSpec.ofSpec (Memref.whole main_call0_v0) S1x1024x1024.size reads0_1 false false 2 stage0_1 sem0_1 nbuf0_1 hstage0_1

abbrev clip0_2 (i : grid0.Coords) : Fin S66048x1024.rank → Pipeline.Clip := fun a => Pipeline.Clip.of (cc0_transform_2 i a) (S1024x1024.size a) (S66048x1024.size a)
abbrev spec0_2 : Pipeline.WinSpec sig grid0.rank :=
  Pipeline.WinSpec.ofSpec (Memref.whole main_v0) S1024x1024.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x1024x1024.size a ≤ S8x1024x1024.size a), EltTy.bits .bf16 = 32 ∨ (Rect.block (s := S8x1024x1024) S1x1024x1024.size (cc0_transform_1 k0_off1_inb numel1_S1 pf i) h).WholeWords (EltTy.packing .bf16))
instance (pf : pre0.Contents (Elt F)) : Decidable (ok0 pf) := decidable_of_iff' _ (Iff.of_eq (ok0.eq_1 pf))
abbrev clip0 (pf : pre0.Contents (Elt F)) : (w : Fin 3) → grid0.Coords → Fin (spec0 w).shape.rank → Pipeline.Clip := fun | 0 => clip0_0 | 1 => fun _ _ => none | 2 => clip0_2 | ⟨_ + 3, h⟩ => absurd h (Nat.not_lt.2 (Nat.le_add_left _ _))
theorem hclip0 : ∀ (pf : pre0.Contents (Elt F)), ok0 pf → ∀ w (i : grid0.Coords) a, Pipeline.Clip.Ok (ix0 pf w i a) ((spec0 w).size a) ((spec0 w).shape.size a) (clip0 pf w i a) :=
  fun pf hok => fun | 0 => fun i a => Pipeline.Clip.ok_of (hstart0_0 i a) | 1 => fun i a => (hok i).elim fun h _ => h a | 2 => fun i a => Pipeline.Clip.ok_of (hstart0_2 i a) | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.unit (fun a => ix0 pf w i a * (spec0 w).size a)
    (fun a => (clip0 pf w i a).extent ((spec0 w).size a)) fun a => Pipeline.Clip.inb (hclip0 pf hok w i a)).WholeWords (spec0 w).elt.packing :=
  fun pf hok => fun | 0 => hwx0_0 | 1 => fun i => (hok i).elim fun _ h => h | 2 => hwx0_2 | ⟨_ + 3, h⟩ => absurd h (Nat.not_lt.2 (Nat.le_add_left _ _))
theorem hwxs0 : ∀ (pf : pre0.Contents (Elt F)) (hok : ok0 pf) w (i : grid0.Coords), (spec0 w).elt.bits = 32 ∨ (Rect.unit (s := (spec0 w).block) (fun _ => 0)
    (fun a => (clip0 pf w i a).extent ((spec0 w).size a)) fun a => (Nat.zero_add _).trans_le (Pipeline.Clip.extent_le (hclip0 pf hok w i a))).WholeWords (spec0 w).elt.packing :=
  fun pf hok => fun | 0 => hwxs0_0 | 1 => fun _ => .inr (Rect.wholeWords_whole _ _) | 2 => hwxs0_2 | ⟨_ + 3, h⟩ => absurd h (Nat.not_lt.2 (Nat.le_add_left _ _))
abbrev loose0 : Fin 3 → Bool := fun | 0 => true | 1 => false | 2 => true | ⟨_ + 3, h⟩ => absurd h (Nat.not_lt.2 (Nat.le_add_left _ _))
theorem hstage0 : ∀ w s, ((spec0 w).stage s).IsWhole := fun | 0 => hstage0_0 | 1 => hstage0_1 | 2 => hstage0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S66048x1024 : Shape := ⟨2, ![66048, 1024]⟩
abbrev S8x1024x1024 : Shape := ⟨3, ![8, 1024, 1024]⟩
abbrev S12288x1024 : Shape := ⟨2, ![12288, 1024]⟩
abbrev S1x1024x1024 : Shape := ⟨3, ![1, 1024, 1024]⟩
abbrev S1024x1024 : Shape := ⟨2, ![1024, 1024]⟩
abbrev S10240x1024 : Shape := ⟨2, ![10240, 1024]⟩
abbrev S9216x1024 : Shape := ⟨2, ![9216, 1024]⟩
abbrev S8192x1024 : Shape := ⟨2, ![8192, 1024]⟩
abbrev S7168x1024 : Shape := ⟨2, ![7168, 1024]⟩
abbrev S6144x1024 : Shape := ⟨2, ![6144, 1024]⟩
abbrev S5632x1024 : Shape := ⟨2, ![5632, 1024]⟩

abbrev nBuf : Space → Nat
  | .hbm => 35
  | .vmem => 0
  | .smem => 0
  | _ => 0

abbrev bufTy : (tb : Table) → Fin (tcTables nBuf tb) → BufTy
  | .hbm, ⟨0, _⟩ => ⟨S66048x1024, .f32⟩
  | .hbm, ⟨1, _⟩ => ⟨S8x1024x1024, .f32⟩
  | .hbm, ⟨2, _⟩ => ⟨S12288x1024, .f32⟩
  | .hbm, ⟨3, _⟩ => ⟨S1x1024x1024, .f32⟩
  | .hbm, ⟨4, _⟩ => ⟨S1024x1024, .f32⟩
  | .hbm, ⟨5, _⟩ => ⟨S12288x1024, .f32⟩
  | .hbm, ⟨6, _⟩ => ⟨S10240x1024, .f32⟩
  | .hbm, ⟨7, _⟩ => ⟨S1x1024x1024, .f32⟩
  | .hbm, ⟨8, _⟩ => ⟨S1024x1024, .f32⟩
  | .hbm, ⟨9, _⟩ => ⟨S10240x1024, .f32⟩
  | .hbm, ⟨10, _⟩ => ⟨S9216x1024, .f32⟩
  | .hbm, ⟨11, _⟩ => ⟨S1x1024x1024, .f32⟩
  | .hbm, ⟨12, _⟩ => ⟨S1024x1024, .f32⟩
  | .hbm, ⟨13, _⟩ => ⟨S9216x1024, .f32⟩
  | .hbm, ⟨14, _⟩ => ⟨S8192x1024, .f32⟩
  | .hbm, ⟨15, _⟩ => ⟨S1x1024x1024, .f32⟩
  | .hbm, ⟨16, _⟩ => ⟨S1024x1024, .f32⟩
  | .hbm, ⟨17, _⟩ => ⟨S8192x1024, .f32⟩
  | .hbm, ⟨18, _⟩ => ⟨S7168x1024, .f32⟩
  | .hbm, ⟨19, _⟩ => ⟨S1x1024x1024, .f32⟩
  | .hbm, ⟨20, _⟩ => ⟨S1024x1024, .f32⟩
  | .hbm, ⟨21, _⟩ => ⟨S7168x1024, .f32⟩
  | .hbm, ⟨22, _⟩ => ⟨S7168x1024, .f32⟩
  | .hbm, ⟨23, _⟩ => ⟨S1x1024x1024, .f32⟩
  | .hbm, ⟨24, _⟩ => ⟨S1024x1024, .f32⟩
  | .hbm, ⟨25, _⟩ => ⟨S7168x1024, .f32⟩
  | .hbm, ⟨26, _⟩ => ⟨S6144x1024, .f32⟩
  | .hbm, ⟨27, _⟩ => ⟨S1x1024x1024, .f32⟩
  | .hbm, ⟨28, _⟩ => ⟨S1024x1024, .f32⟩
  | .hbm, ⟨29, _⟩ => ⟨S6144x1024, .f32⟩
  | .hbm, ⟨30, _⟩ => ⟨S5632x1024, .f32⟩
  | .hbm, ⟨31, _⟩ => ⟨S1x1024x1024, .f32⟩
  | .hbm, ⟨32, _⟩ => ⟨S1024x1024, .f32⟩
  | .hbm, ⟨33, _⟩ => ⟨S5632x1024, .f32⟩
  | .hbm, ⟨34, _⟩ => ⟨S66048x1024, .f32⟩
  | _, _ => ⟨S66048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩

abbrev nD : Nat := 1
abbrev τ : Topo := Topo.v7x

variable {F : FTy → Type} [FloatOps F]

class Facts₀ : Prop where
  slices_S66048x1024_S12288x1024_0_0 : S66048x1024.Slices ![0, 0] S12288x1024
  slices_S8x1024x1024_S1x1024x1024_0_0_0 : S8x1024x1024.Slices ![0, 0, 0] S1x1024x1024
  shapeCasts_S1x1024x1024_S1024x1024 : S1x1024x1024.ShapeCasts S1024x1024
  slices_S66048x1024_S10240x1024_12288_0 : S66048x1024.Slices ![12288, 0] S10240x1024
  slices_S8x1024x1024_S1x1024x1024_1_0_0 : S8x1024x1024.Slices ![1, 0, 0] S1x1024x1024
  slices_S66048x1024_S9216x1024_22528_0 : S66048x1024.Slices ![22528, 0] S9216x1024
  slices_S8x1024x1024_S1x1024x1024_2_0_0 : S8x1024x1024.Slices ![2, 0, 0] S1x1024x1024
  slices_S66048x1024_S8192x1024_31744_0 : S66048x1024.Slices ![31744, 0] S8192x1024
  slices_S8x1024x1024_S1x1024x1024_3_0_0 : S8x1024x1024.Slices ![3, 0, 0] S1x1024x1024
  slices_S66048x1024_S7168x1024_39936_0 : S66048x1024.Slices ![39936, 0] S7168x1024
  slices_S8x1024x1024_S1x1024x1024_4_0_0 : S8x1024x1024.Slices ![4, 0, 0] S1x1024x1024
  slices_S66048x1024_S7168x1024_47104_0 : S66048x1024.Slices ![47104, 0] S7168x1024
  slices_S8x1024x1024_S1x1024x1024_5_0_0 : S8x1024x1024.Slices ![5, 0, 0] S1x1024x1024
  slices_S66048x1024_S6144x1024_54272_0 : S66048x1024.Slices ![54272, 0] S6144x1024
  slices_S8x1024x1024_S1x1024x1024_6_0_0 : S8x1024x1024.Slices ![6, 0, 0] S1x1024x1024
  slices_S66048x1024_S5632x1024_60416_0 : S66048x1024.Slices ![60416, 0] S5632x1024
  slices_S8x1024x1024_S1x1024x1024_7_0_0 : S8x1024x1024.Slices ![7, 0, 0] S1x1024x1024
  concatenates_S12288x1024_S10240x1024_S9216x1024_S8192x1024_S7168x1024_S7168x1024_S6144x1024_S5632x1024_S66048x1024_d0 : Shape.Concatenates [S12288x1024, S10240x1024, S9216x1024, S8192x1024, S7168x1024, S7168x1024, S6144x1024, S5632x1024] S66048x1024 0
  dot_S12288x1024_S1024x1024_S12288x1024_1_0_0_1_n_n_wf : DotDims.WF S12288x1024 S1024x1024 S12288x1024 [1] [0] [0] [1] [] []
  dot_S10240x1024_S1024x1024_S10240x1024_1_0_0_1_n_n_wf : DotDims.WF S10240x1024 S1024x1024 S10240x1024 [1] [0] [0] [1] [] []
  dot_S9216x1024_S1024x1024_S9216x1024_1_0_0_1_n_n_wf : DotDims.WF S9216x1024 S1024x1024 S9216x1024 [1] [0] [0] [1] [] []
  dot_S8192x1024_S1024x1024_S8192x1024_1_0_0_1_n_n_wf : DotDims.WF S8192x1024 S1024x1024 S8192x1024 [1] [0] [0] [1] [] []
  dot_S7168x1024_S1024x1024_S7168x1024_1_0_0_1_n_n_wf : DotDims.WF S7168x1024 S1024x1024 S7168x1024 [1] [0] [0] [1] [] []
  dot_S6144x1024_S1024x1024_S6144x1024_1_0_0_1_n_n_wf : DotDims.WF S6144x1024 S1024x1024 S6144x1024 [1] [0] [0] [1] [] []
  dot_S5632x1024_S1024x1024_S5632x1024_1_0_0_1_n_n_wf : DotDims.WF S5632x1024 S1024x1024 S5632x1024 [1] [0] [0] [1] [] []

variable [Facts₀]

def dot_S12288x1024_S1024x1024_S12288x1024_1_0_0_1_n_n : DotDims S12288x1024 S1024x1024 S12288x1024 where
  lhsContracting := [1]
  rhsContracting := [0]
  lhsNonContracting := [0]
  rhsNonContracting := [1]
  lhsBatch := []
  rhsBatch := []
  wf := dot_S12288x1024_S1024x1024_S12288x1024_1_0_0_1_n_n_wf
def dot_S10240x1024_S1024x1024_S10240x1024_1_0_0_1_n_n : DotDims S10240x1024 S1024x1024 S10240x1024 where
  lhsContracting := [1]
  rhsContracting := [0]
  lhsNonContracting := [0]
  rhsNonContracting := [1]
  lhsBatch := []
  rhsBatch := []
  wf := dot_S10240x1024_S1024x1024_S10240x1024_1_0_0_1_n_n_wf
def dot_S9216x1024_S1024x1024_S9216x1024_1_0_0_1_n_n : DotDims S9216x1024 S1024x1024 S9216x1024 where
  lhsContracting := [1]
  rhsContracting := [0]
  lhsNonContracting := [0]
  rhsNonContracting := [1]
  lhsBatch := []
  rhsBatch := []
  wf := dot_S9216x1024_S1024x1024_S9216x1024_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S7168x1024_S1024x1024_S7168x1024_1_0_0_1_n_n : DotDims S7168x1024 S1024x1024 S7168x1024 where
  lhsContracting := [1]
  rhsContracting := [0]
  lhsNonContracting := [0]
  rhsNonContracting := [1]
  lhsBatch := []
  rhsBatch := []
  wf := dot_S7168x1024_S1024x1024_S7168x1024_1_0_0_1_n_n_wf
def dot_S6144x1024_S1024x1024_S6144x1024_1_0_0_1_n_n : DotDims S6144x1024 S1024x1024 S6144x1024 where
  lhsContracting := [1]
  rhsContracting := [0]
  lhsNonContracting := [0]
  rhsNonContracting := [1]
  lhsBatch := []
  rhsBatch := []
  wf := dot_S6144x1024_S1024x1024_S6144x1024_1_0_0_1_n_n_wf
def dot_S5632x1024_S1024x1024_S5632x1024_1_0_0_1_n_n : DotDims S5632x1024 S1024x1024 S5632x1024 where
  lhsContracting := [1]
  rhsContracting := [0]
  lhsNonContracting := [0]
  rhsNonContracting := [1]
  lhsBatch := []
  rhsBatch := []
  wf := dot_S5632x1024_S1024x1024_S5632x1024_1_0_0_1_n_n_wf

class Facts : Prop extends Facts₀ where

variable [Facts]
-- ==== Proof.KitKernel.lean ====
/-
  The launch side of the grouped matrix product, at any float instance.

  @main first writes two arrays — the 65-entry table saying which expert owns each 1024-row tile, a literal of the
  program, and the eight weight matrices narrowed to bf16 — and then runs one pipelined region over 65 grid points.
  Window 0 stages rows [1024·t, 1024·t + 1024) of the token matrix, window 1 the weight matrix of the expert the
  table names at t, window 2 writes rows [1024·t, 1024·t + 1024) of the result back. The token matrix has
  66048 = 64·1024 + 512 rows, so the last block of windows 0 and 2 overhangs the array by 512 rows and its transfers
  are cut there; window 1's block index is read from the table.

  Here: what every buffer holds when the region is entered (the launch contents with the two host results written),
  that neither argument array is touched on the way, the table's contents as a literal, and from that the side
  condition the pipeline asks of the table — every entry is below 8, so every block of window 1 lies inside the
  [8, 1024, 1024] weights, and such a block is whole rows of one slab, hence whole words at any packing.
-/
import proofs.«176876_j8942121910611_2_alg».proof.Proof.Gen.Kernel.Launch
import proofs.«176876_j8942121910611_2_alg».proof.Proof.Gen.Kernel.Skeleton
import Idealize.ShloMosaic.Lib.Pipeline.FrameBody
import Idealize.ShloMosaic.Lib.StableHlo.Run
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core c's buffers hold when the region is entered: the launch contents after the two host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the two host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host operations write the table and the narrowed weights, never the token matrix … -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, Finset.mem_singleton]
    repeat' apply And.intro
    all_goals exact StableHlo.devRef_ne_of_ne (by decide)))
/-- … nor the f32 weights. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, Finset.mem_singleton]
    repeat' apply And.intro
    all_goals exact StableHlo.devRef_ne_of_ne (by decide)))

/-- The narrowed weights the region finds: the f32 weights through the change of format. -/
theorem V_weights (c : Dev nD) :
    (V m c main_call0_v0 : S8x1024x1024.Idx → Elt F .bf16)
      = truncf .bf16 (m ((c : Thread nD τ).loc main_arg1) : S8x1024x1024.Idx → Elt F .f32) bitsLt_bf16_f32 := by
  dsimp only [V, hostOps0]; after_results; rfl

/-! ## The table -/

/-- The table's contents when the region is entered (one device: device 0's). -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- The table is the program's literal: entry i is the expert owning tile i. -/
theorem tbl_eq : (tbl m 0 : S65.Idx → BitVec 32) = fun i => lit0 (S65.rowMajor i) := by
  unfold tbl
  show (V m 0 main_call0_c : S65.Idx → BitVec 32) = _
  dsimp only [V, hostOps0]; after_results; rfl

/-- Every entry of the literal names one of the eight experts. -/
theorem lit0_lt : ∀ j : Fin 65, (lit0 j).toNat < 8 := by decide

/-- The pipeline's side condition of the table: at every grid point window 1's block — expert tbl[t], all rows, all
    columns — lies inside the weights, and being every row of one slab it is whole words. -/
theorem ok : ok0 (F := F) (tbl m) := by
  intro i
  obtain ⟨w, hw, e⟩ : ∃ w : BitVec 32, w.toNat < 8 ∧ cc0_transform_1 k0_off1_inb numel1_S1 (tbl m) i = ![w.toNat, 0, 0] := by
    refine ⟨_, ?_, rfl⟩
    show ((tbl m 0 : S65.Idx → BitVec 32) _).toNat < 8
    rw [tbl_eq]; exact lit0_lt _
  have hin : ∀ a, (cc0_transform_1 k0_off1_inb numel1_S1 (tbl m) i a + 1) * S1x1024x1024.size a ≤ S8x1024x1024.size a := by
    intro a; rw [e]
    fin_cases a <;> simp [S1x1024x1024, S8x1024x1024] <;> omega
  refine ⟨hin, Or.inr (Or.inr ⟨by decide, rfl, ?_, rfl⟩)⟩
  show cc0_transform_1 k0_off1_inb numel1_S1 (tbl m) i _ * _ = 0
  rw [e]; rfl

/-- The table as admissible contents, and the pipeline at them. -/
abbrev adm : (pcfg0 (F := F)).Adm := ⟨tbl m, ok m⟩
abbrev cfgM : Pipeline.Cfg sig Λ₀ := cfg0 (adm m)

end Cert.Kernel.Hand

end
-- ==== Proof.BodyKernel.lean ====
/-
  The kernel body at one grid point, at any float instance.

  The body reads its whole token block (1024 × 1024, f32) and its whole weight block (1 × 1024 × 1024, bf16), narrows
  the tokens to bf16, drops the weights' unit axis, multiplies the two into a zero accumulator and stores the
  1024 × 1024 product over its whole output block (the load of the output block before the store is dead). So
  whatever the two input buffers hold, afterwards they hold the same and the output buffer holds that product of
  them; the table it is also handed is never touched.
-/
import proofs.«176876_j8942121910611_2_alg».proof.Proof.KitKernel
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 1024 × 1024 block and the whole 1 × 1024 × 1024 block, as the body's accesses spell them. -/
abbrev rTok : Rect S1024x1024 := Rect.unit (s := S1024x1024) ![0, 0] S1024x1024.size inb_S1024x1024_S1024x1024_0_0
abbrev rWt : Rect S1x1024x1024 := Rect.unit (s := S1x1024x1024) ![0, 0, 0] S1x1024x1024.size inb_S1x1024x1024_S1x1024x1024_0_0_0

set_option maxHeartbeats 1000000 in
/-- The body on whole staging memrefs holding x0 (tokens), x1 (weights) and anything (output): it ends with the
    first two unchanged and the output at the product of x0 and x1. -/
theorem sound_kernel (c : Dev nD) (E : Set ℕ) (i : grid0.Coords)
    (arg1 : Memref sig .tc .smem S65 .i32) (harg1 : arg1.IsWhole)
    (arg2 : Memref sig .tc .vmem S1024x1024 .f32) (harg2 : arg2.IsWhole)
    (arg3 : Memref sig .tc .vmem S1x1024x1024 .bf16) (harg3 : arg3.IsWhole)
    (arg4 : Memref sig .tc .vmem S1024x1024 .f32) (harg4 : arg4.IsWhole)
    (x0 : Vec F S1024x1024 .f32) (x1 : Vec F S1x1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (k0_pay1 x0 x1)) -∗ K ⟨⟩))
      ⊢ wp frame (wpE (defs₀ (F := F)) Variants.none c none) E (cc0__group_gemm_kernel i arg1 harg1 arg2 harg2 arg3 harg3 arg4 harg4) K := by
  simp only [cc0__group_gemm_kernel_eq_skeleton]; unfold cc0__group_gemm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have hz2 : (![0, 0] : Fin 2 → Nat) = fun _ => 0 := funext fun a => by fin_cases a <;> rfl
  have hz3 : (![0, 0, 0] : Fin 3 → Nat) = fun _ => 0 := funext fun a => by fin_cases a <;> rfl
  rw [View.read_writes_eq_canon _ _ _ (View.cover_of_tiled _ S1024x1024.size (by rfl)), View.canon_unit_zero hz2]
  simp only [View.readAt_eq_ld, View.ld_unit_zero (S := S1024x1024) hz2, View.ld_unit_zero (S := S1x1024x1024) hz3]

end Cert.Kernel.Hand

end
-- ==== Proof.DataKernel.lean ====
/-
  The proof data of the one pipeline, the body obligation, the run, and the frame — at any float instance.

  At grid point t the token window's staging buffer holds rows [1024·t, 1024·t + 1024) of the token matrix as far as
  they exist (all 1024 for t < 64, the first 512 for t = 64) and, below them, words nothing names; the weight window's
  holds the whole matrix of the expert the table names at t; the body leaves both as they are and fills the output
  buffer with their product. Only the rows inside the array are written back.

  Two readings of that. For the FRAME nothing need be said about the output buffer: the obligation hands it over
  at any contents and takes it back at any (the window is forgotten), the inputs pass through unchanged, and the
  run's post gives both argument arrays as launched. For the VALUE the output buffer's written-back rows must be
  named, and named without mention of the unnamed words below the token rows: that is so exactly when row r of the
  product depends on row r of the left factor only (RowLocal), which is a law of the float instance and is taken
  here as a hypothesis.
-/
import proofs.«176876_j8942121910611_2_alg».proof.Proof.BodyKernel

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window w's block at point t — its part inside the array — read off the array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The token block at point t filled out to 1024 rows: the rows inside the array, and d below them. -/
def tokWith (c : Dev nD) (t : Fin (cfgM m).N) (d : S1024x1024.Idx → Elt F .f32) : S1024x1024.Idx → Elt F .f32 :=
  ((cfgM m).win 0).fill ((cfgM m).grid.coords t) d (iblk m c 0 t)

/-- The same with the zero word below. -/
def tok (c : Dev nD) (t : Fin (cfgM m).N) : S1024x1024.Idx → Elt F .f32 := tokWith m c t (fun _ => Scalar.ofBits .f32 0#32)

/-- The weight block at point t: the narrowed matrix of the expert the table names there. -/
def wts (c : Dev nD) (t : Fin (cfgM m).N) : S1x1024x1024.Idx → Elt F .bf16 := iblk m c 1 t

/-! ## The proof data -/

/-- The arrays as the region finds them; after the body the token buffer at its block over zeros, the weight buffer at
    its block, the output buffer at their product; the invariant the scoped rest, the generator register and the
    table's half; nothing owed; full shares. -/
def dats (_ : Fin 1) (c : Dev nD) : Dat τ (Elt F) Unit ℕ (UR sig nD τ) ℕ (cfgM m) c where
  A w := V m c (Pipeline.arrRef spec0 w)
  after w t := match w with
    | ⟨0, _⟩ => tok m c t
    | ⟨1, _⟩ => wts m c t
    | ⟨2, _⟩ => k0_pay1 (tok m c t) (wts m c t)
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = tok m c t := by dsimp only [dats]; try rfl
theorem after_1 (c : Dev nD) (t : Fin (cfgM m).N) : (dats m 0 c).after 1 t = wts m c t := by dsimp only [dats]; try rfl
theorem after_2 (c : Dev nD) (t : Fin (cfgM m).N) : (dats m 0 c).after 2 t = k0_pay1 (tok m c t) (wts m c t) := by dsimp only [dats]; try rfl

/-- The token buffer at point t, fetched there: its block over whatever the buffer held below it. -/
theorem before_0 (c : Dev nD) (t : Fin (cfgM m).N) (d) : (dats m 0 c).before 0 t d = tokWith m c t d :=
  ((dats m 0 c).before_in_eq_fetched 0 rfl (fun _ => rfl)
    (fun t t' h => funext fun a => by
      show Pipeline.Clip.of (((cfgM m).win 0).index t a) _ _ = Pipeline.Clip.of (((cfgM m).win 0).index t' a) _ _
      rw [h])
    (fun t => by
      rw [after_0]
      refine (((cfgM m).win 0).cut_fill _ _ _).trans ?_
      unfold Dat.blockOf iblk; rw [A_eq]) t d).trans
    (by unfold Dat.fetched Dat.blockOf tokWith iblk; rw [A_eq]; rfl)

/-- The weight buffer at point t holds the block there, fetched there or (the expert unchanged) left from before. -/
theorem before_1 (c : Dev nD) (t : Fin (cfgM m).N) (d) : (dats m 0 c).before 1 t d = wts m c t :=
  ((dats m 0 c).before_in_eq_fetched 1 rfl (fun _ => rfl) (fun _ _ _ => rfl)
    (fun t => by rw [after_1]; unfold wts Dat.blockOf iblk; rw [A_eq]; try rfl) t d).trans
    (by unfold Dat.fetched Dat.blockOf wts iblk; rw [A_eq]; try rfl)

/-! ## The body obligation -/

/-- The output window, forgotten. -/
abbrev fgtOut : Fin 3 → Bool := fun | 0 => false | 1 => false | 2 => true | ⟨_ + 3, h⟩ => absurd h (Nat.not_lt.2 (Nat.le_add_left _ _))

/-- Row r of the product depends on row r of the left factor only, as far as the written-back rows go: the product
    of the token block over ANY filler and the weights agrees, on the rows inside the array, with the product over
    the zero filler. -/
def RowLocal : Prop :=
  ∀ (c : Dev nD) (t : Fin (cfgM m).N) (d : S1024x1024.Idx → Elt F .f32),
    ((cfgM m).win 2).cut ((cfgM m).grid.coords t) (k0_pay1 (tokWith m c t d) (wts m c t))
      = ((cfgM m).win 2).cut ((cfgM m).grid.coords t) (k0_pay1 (tok m c t) (wts m c t))

/-- The token buffer's rows inside the array, refilled over d, are the block over d. -/
theorem refill_0 (c : Dev nD) (t : Fin (cfgM m).N) (d : S1024x1024.Idx → Elt F .f32) :
    ((cfgM m).win 0).fill ((cfgM m).grid.coords t) d (((cfgM m).win 0).cut ((cfgM m).grid.coords t) ((dats m 0 c).after 0 t))
      = tokWith m c t d := by
  rw [after_0]
  exact congrArg (((cfgM m).win 0).fill ((cfgM m).grid.coords t) d) (((cfgM m).win 0).cut_fill _ _ _)

/-- Given row locality, the product over any filler is the named product refilled over itself. -/
theorem refill_2 (hrow : RowLocal m) (c : Dev nD) (t : Fin (cfgM m).N) (d : S1024x1024.Idx → Elt F .f32) :
    ((cfgM m).win 2).fill ((cfgM m).grid.coords t) (k0_pay1 (tokWith m c t d) (wts m c t))
        (((cfgM m).win 2).cut ((cfgM m).grid.coords t) ((dats m 0 c).after 2 t))
      = k0_pay1 (tokWith m c t d) (wts m c t) := by
  rw [after_2]
  exact ((cfgM m).win 2).fill_congr_cut ((cfgM m).grid.coords t) (hrow c t d)

/-- The obligation with the output window forgotten: the inputs' buffers pass through the body unchanged. -/
theorem obligation_forget (c : Dev nD) : BodyObligationLoose (dats (F := F) m 0 c) (defs₀ (F := F)) Variants.none () Set.univ fgtOut := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%X2, H2⟩⟩
  rw [before_0 m c t d0, before_1 m c t d1]
  iapply (sound_kernel (F := F) c Set.univ (grid0.coords t) (Memref.whole main_call0_c) (Memref.isWhole_whole _)
    (spec0_0.stage ((cfgM m).slots t 0)) (hstage0_0 (((cfgM m).slots t 0).cast nbuf0_0))
    (spec0_1.stage ((cfgM m).slots t 1)) (hstage0_1 (((cfgM m).slots t 1).cast nbuf0_1))
    (spec0_2.stage ((cfgM m).slots t 2)) (hstage0_2 (((cfgM m).slots t 2).cast nbuf0_2))
    (tokWith m c t d0) (wts m c t) _)
  isplitl [H0]; · iexact H0
  isplitl [H1]; · iexact H1
  isplitl [H2]; · iexists X2; iexact H2
  iintro ⟨H0, H1, H2⟩
  isplitl [HΦ]; · iexact HΦ
  isplitl [Ho]; · iexact Ho
  isplitl [H0]
  · iexists d0
    change _ ⊢ owns (c : Thread nD τ) (spec0_0.stage ((cfgM m).slots t 0)) fullShare
      (((cfgM m).win 0).fill ((cfgM m).grid.coords t) d0 (((cfgM m).win 0).cut ((cfgM m).grid.coords t) ((dats m 0 c).after 0 t)))
    rw [refill_0 m c t d0]; try iexact H0
  isplitl [H1]
  · rw [after_1]; iexact H1
  · iexists _; iexact H2

/-- The exact obligation, given row locality: the output buffer's rows inside the array are the product's. -/
theorem obligation_exact (hrow : RowLocal m) (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1]
  iapply (sound_kernel (F := F) c Set.univ (grid0.coords t) (Memref.whole main_call0_c) (Memref.isWhole_whole _)
    (spec0_0.stage ((cfgM m).slots t 0)) (hstage0_0 (((cfgM m).slots t 0).cast nbuf0_0))
    (spec0_1.stage ((cfgM m).slots t 1)) (hstage0_1 (((cfgM m).slots t 1).cast nbuf0_1))
    (spec0_2.stage ((cfgM m).slots t 2)) (hstage0_2 (((cfgM m).slots t 2).cast nbuf0_2))
    (tokWith m c t d0) (wts m c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    change _ ⊢ owns (c : Thread nD τ) (spec0_0.stage ((cfgM m).slots t 0)) fullShare
      (((cfgM m).win 0).fill ((cfgM m).grid.coords t) d0 (((cfgM m).win 0).cut ((cfgM m).grid.coords t) ((dats m 0 c).after 0 t)))
    rw [refill_0 m c t d0]; try iexact H0
  isplitl [H1]
  · rw [after_1]; iexact H1
  · iexists k0_pay1 (tokWith m c t d0) (wts m c t)
    change _ ⊢ owns (c : Thread nD τ) (spec0_2.stage ((cfgM m).slots t 2)) fullShare
      (((cfgM m).win 2).fill ((cfgM m).grid.coords t) (k0_pay1 (tokWith m c t d0) (wts m c t))
        (((cfgM m).win 2).cut ((cfgM m).grid.coords t) ((dats m 0 c).after 2 t)))
    rw [refill_2 m hrow c t d0]; try iexact H2

/-! ## The runs -/

set_option backward.isDefEq.respectTransparency.types false in
/-- Every weakly fair execution of @main terminates without a fault; the windows' arrays end where the data (read with
    the output forgotten) allows, every other unscoped buffer as the region found it. -/
theorem run_forget : θ_run defs (onTc (τ := τ) (main (F := F))) (s₀ m ρ)
    (Pipeline.RDat.FramePost (cfgM m) (fun c => (dats m 0 c).toRForget fgtOut) (V m)) :=
  Pipeline.RDat.θ_run_frameP pcfgs (fun _ => adm m) (0 : Fin 1) launch0 defs₀ Variants.none
    (fun c => (dats m 0 c).toRForget fgtOut) m ρ main
    (hbody := fun c => (obligation_forget m c).toRForget) (hshare := fun c => (dats m 0 c).share_full fun _ => rfl)
    (howed := fun _ _ => rfl) (V := V m) (hmain := hmain m Variants.none) (hA := A_eq m) (hpf := V_pre m)
    (hΦ := fun _ _ => rfl)

set_option backward.isDefEq.respectTransparency.types false in
/-- The same run with every array named: the output array after the last write-back is what the data computes. -/
theorem run_exact (hrow : RowLocal m) : θ_run defs (onTc (τ := τ) (main (F := F))) (s₀ m ρ)
    (Pipeline.FramePost (Pipeline.pin pcfgs fun _ => adm m) (dats m) 0 (V m)) :=
  Pipeline.θ_run_frameP pcfgs (fun _ => adm m) (dats m) (0 : Fin 1) launch0 defs₀ Variants.none m ρ main
    (hbody := obligation_exact m hrow) (hshare := fun c => (dats m 0 c).share_full fun _ => rfl)
    (howed := fun _ _ => rfl) (V := V m) (hmain := hmain m Variants.none) (hA := A_eq m) (hpf := V_pre m)
    (hΦ := fun _ _ => rfl)

/-- THE FRAME: @main runs to the end, faults nowhere, and both argument arrays end as launched — the token matrix
    is an input window's array, never written; the f32 weights are no window's array and bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(((dats m 0 c).toRForget_arrAt_iff (fgt := fgtOut) (w := 0) rfl _ _).mp ((h c).1 0)).trans
        (((dats m 0 c).arrAt_in 0 rfl _).trans ((A_eq m c 0).trans (V_main_arg0 m c))),
      ((h c).2 main_arg1 (Pipeline.mem_restRefs_of main_arg1 (by decide) (show ∀ w : Fin 3, (spec0 w).arr.view.ref ≠ main_arg1 from by decide))).trans (V_main_arg1 m c)⟩)
    (run_forget m ρ)

end Cert.Kernel.Hand

end
-- ==== Proof.KitKernelIdeal.lean ====
/-
  The launch side of the grouped matrix product, at any float instance.

  @main first writes two arrays — the 65-entry table saying which expert owns each 1024-row tile, a literal of the
  program, and the eight weight matrices narrowed to bf16 — and then runs one pipelined region over 65 grid points.
  Window 0 stages rows [1024·t, 1024·t + 1024) of the token matrix, window 1 the weight matrix of the expert the
  table names at t, window 2 writes rows [1024·t, 1024·t + 1024) of the result back. The token matrix has
  66048 = 64·1024 + 512 rows, so the last block of windows 0 and 2 overhangs the array by 512 rows and its transfers
  are cut there; window 1's block index is read from the table.

  Here: what every buffer holds when the region is entered (the launch contents with the two host results written),
  that neither argument array is touched on the way, the table's contents as a literal, and from that the side
  condition the pipeline asks of the table — every entry is below 8, so every block of window 1 lies inside the
  [8, 1024, 1024] weights, and such a block is whole rows of one slab, hence whole words at any packing.
-/
import proofs.«176876_j8942121910611_2_alg».proof.Proof.Gen.KernelIdeal.Launch
import proofs.«176876_j8942121910611_2_alg».proof.Proof.Gen.KernelIdeal.Skeleton
import Idealize.ShloMosaic.Lib.Pipeline.FrameBody
import Idealize.ShloMosaic.Lib.StableHlo.Run
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core c's buffers hold when the region is entered: the launch contents after the two host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the two host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host operations write the table and the narrowed weights, never the token matrix … -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, Finset.mem_singleton]
    repeat' apply And.intro
    all_goals exact StableHlo.devRef_ne_of_ne (by decide)))
/-- … nor the f32 weights. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, Finset.mem_singleton]
    repeat' apply And.intro
    all_goals exact StableHlo.devRef_ne_of_ne (by decide)))

/-- The narrowed weights the region finds: the f32 weights through the change of format. -/
theorem V_weights (c : Dev nD) :
    (V m c main_call0_v0 : S8x1024x1024.Idx → Elt F .bf16)
      = truncf .bf16 (m ((c : Thread nD τ).loc main_arg1) : S8x1024x1024.Idx → Elt F .f32) bitsLt_bf16_f32 := by
  dsimp only [V, hostOps0]; after_results; rfl

/-! ## The table -/

/-- The table's contents when the region is entered (one device: device 0's). -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- The table is the program's literal: entry i is the expert owning tile i. -/
theorem tbl_eq : (tbl m 0 : S65.Idx → BitVec 32) = fun i => lit0 (S65.rowMajor i) := by
  unfold tbl
  show (V m 0 main_call0_c : S65.Idx → BitVec 32) = _
  dsimp only [V, hostOps0]; after_results; rfl

/-- Every entry of the literal names one of the eight experts. -/
theorem lit0_lt : ∀ j : Fin 65, (lit0 j).toNat < 8 := by decide

/-- The pipeline's side condition of the table: at every grid point window 1's block — expert tbl[t], all rows, all
    columns — lies inside the weights, and being every row of one slab it is whole words. -/
theorem ok : ok0 (F := F) (tbl m) := by
  intro i
  obtain ⟨w, hw, e⟩ : ∃ w : BitVec 32, w.toNat < 8 ∧ cc0_transform_1 k0_off1_inb numel1_S1 (tbl m) i = ![w.toNat, 0, 0] := by
    refine ⟨_, ?_, rfl⟩
    show ((tbl m 0 : S65.Idx → BitVec 32) _).toNat < 8
    rw [tbl_eq]; exact lit0_lt _
  have hin : ∀ a, (cc0_transform_1 k0_off1_inb numel1_S1 (tbl m) i a + 1) * S1x1024x1024.size a ≤ S8x1024x1024.size a := by
    intro a; rw [e]
    fin_cases a <;> simp [S1x1024x1024, S8x1024x1024] <;> omega
  refine ⟨hin, Or.inr (Or.inr ⟨by decide, rfl, ?_, rfl⟩)⟩
  show cc0_transform_1 k0_off1_inb numel1_S1 (tbl m) i _ * _ = 0
  rw [e]; rfl

/-- The table as admissible contents, and the pipeline at them. -/
abbrev adm : (pcfg0 (F := F)).Adm := ⟨tbl m, ok m⟩
abbrev cfgM : Pipeline.Cfg sig Λ₀ := cfg0 (adm m)

end Cert.KernelIdeal.Hand

end
-- ==== Proof.BodyKernelIdeal.lean ====
/-
  The kernel body at one grid point, at any float instance.

  The body reads its whole token block (1024 × 1024, f32) and its whole weight block (1 × 1024 × 1024, bf16), narrows
  the tokens to bf16, drops the weights' unit axis, multiplies the two into a zero accumulator and stores the
  1024 × 1024 product over its whole output block (the load of the output block before the store is dead). So
  whatever the two input buffers hold, afterwards they hold the same and the output buffer holds that product of
  them; the table it is also handed is never touched.
-/
import proofs.«176876_j8942121910611_2_alg».proof.Proof.KitKernelIdeal
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 1024 × 1024 block and the whole 1 × 1024 × 1024 block, as the body's accesses spell them. -/
abbrev rTok : Rect S1024x1024 := Rect.unit (s := S1024x1024) ![0, 0] S1024x1024.size inb_S1024x1024_S1024x1024_0_0
abbrev rWt : Rect S1x1024x1024 := Rect.unit (s := S1x1024x1024) ![0, 0, 0] S1x1024x1024.size inb_S1x1024x1024_S1x1024x1024_0_0_0

set_option maxHeartbeats 1000000 in
/-- The body on whole staging memrefs holding x0 (tokens), x1 (weights) and anything (output): it ends with the
    first two unchanged and the output at the product of x0 and x1. -/
theorem sound_kernel (c : Dev nD) (E : Set ℕ) (i : grid0.Coords)
    (arg1 : Memref sig .tc .smem S65 .i32) (harg1 : arg1.IsWhole)
    (arg2 : Memref sig .tc .vmem S1024x1024 .f32) (harg2 : arg2.IsWhole)
    (arg3 : Memref sig .tc .vmem S1x1024x1024 .bf16) (harg3 : arg3.IsWhole)
    (arg4 : Memref sig .tc .vmem S1024x1024 .f32) (harg4 : arg4.IsWhole)
    (x0 : Vec F S1024x1024 .f32) (x1 : Vec F S1x1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (k0_pay1 x0 x1)) -∗ K ⟨⟩))
      ⊢ wp frame (wpE (defs₀ (F := F)) Variants.none c none) E (cc0__group_gemm_kernel i arg1 harg1 arg2 harg2 arg3 harg3 arg4 harg4) K := by
  simp only [cc0__group_gemm_kernel_eq_skeleton]; unfold cc0__group_gemm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have hz2 : (![0, 0] : Fin 2 → Nat) = fun _ => 0 := funext fun a => by fin_cases a <;> rfl
  have hz3 : (![0, 0, 0] : Fin 3 → Nat) = fun _ => 0 := funext fun a => by fin_cases a <;> rfl
  rw [View.read_writes_eq_canon _ _ _ (View.cover_of_tiled _ S1024x1024.size (by rfl)), View.canon_unit_zero hz2]
  simp only [View.readAt_eq_ld, View.ld_unit_zero (S := S1024x1024) hz2, View.ld_unit_zero (S := S1x1024x1024) hz3]

end Cert.KernelIdeal.Hand

end
-- ==== Proof.DataKernelIdeal.lean ====
/-
  The proof data of the one pipeline, the body obligation, the run, and the frame — at any float instance.

  At grid point t the token window's staging buffer holds rows [1024·t, 1024·t + 1024) of the token matrix as far as
  they exist (all 1024 for t < 64, the first 512 for t = 64) and, below them, words nothing names; the weight window's
  holds the whole matrix of the expert the table names at t; the body leaves both as they are and fills the output
  buffer with their product. Only the rows inside the array are written back.

  Two readings of that. For the FRAME nothing need be said about the output buffer: the obligation hands it over
  at any contents and takes it back at any (the window is forgotten), the inputs pass through unchanged, and the
  run's post gives both argument arrays as launched. For the VALUE the output buffer's written-back rows must be
  named, and named without mention of the unnamed words below the token rows: that is so exactly when row r of the
  product depends on row r of the left factor only (RowLocal), which is a law of the float instance and is taken
  here as a hypothesis.
-/
import proofs.«176876_j8942121910611_2_alg».proof.Proof.BodyKernelIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window w's block at point t — its part inside the array — read off the array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The token block at point t filled out to 1024 rows: the rows inside the array, and d below them. -/
def tokWith (c : Dev nD) (t : Fin (cfgM m).N) (d : S1024x1024.Idx → Elt F .f32) : S1024x1024.Idx → Elt F .f32 :=
  ((cfgM m).win 0).fill ((cfgM m).grid.coords t) d (iblk m c 0 t)

/-- The same with the zero word below. -/
def tok (c : Dev nD) (t : Fin (cfgM m).N) : S1024x1024.Idx → Elt F .f32 := tokWith m c t (fun _ => Scalar.ofBits .f32 0#32)

/-- The weight block at point t: the narrowed matrix of the expert the table names there. -/
def wts (c : Dev nD) (t : Fin (cfgM m).N) : S1x1024x1024.Idx → Elt F .bf16 := iblk m c 1 t

/-! ## The proof data -/

/-- The arrays as the region finds them; after the body the token buffer at its block over zeros, the weight buffer at
    its block, the output buffer at their product; the invariant the scoped rest, the generator register and the
    table's half; nothing owed; full shares. -/
def dats (_ : Fin 1) (c : Dev nD) : Dat τ (Elt F) Unit ℕ (UR sig nD τ) ℕ (cfgM m) c where
  A w := V m c (Pipeline.arrRef spec0 w)
  after w t := match w with
    | ⟨0, _⟩ => tok m c t
    | ⟨1, _⟩ => wts m c t
    | ⟨2, _⟩ => k0_pay1 (tok m c t) (wts m c t)
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = tok m c t := by dsimp only [dats]; try rfl
theorem after_1 (c : Dev nD) (t : Fin (cfgM m).N) : (dats m 0 c).after 1 t = wts m c t := by dsimp only [dats]; try rfl
theorem after_2 (c : Dev nD) (t : Fin (cfgM m).N) : (dats m 0 c).after 2 t = k0_pay1 (tok m c t) (wts m c t) := by dsimp only [dats]; try rfl

/-- The token buffer at point t, fetched there: its block over whatever the buffer held below it. -/
theorem before_0 (c : Dev nD) (t : Fin (cfgM m).N) (d) : (dats m 0 c).before 0 t d = tokWith m c t d :=
  ((dats m 0 c).before_in_eq_fetched 0 rfl (fun _ => rfl)
    (fun t t' h => funext fun a => by
      show Pipeline.Clip.of (((cfgM m).win 0).index t a) _ _ = Pipeline.Clip.of (((cfgM m).win 0).index t' a) _ _
      rw [h])
    (fun t => by
      rw [after_0]
      refine (((cfgM m).win 0).cut_fill _ _ _).trans ?_
      unfold Dat.blockOf iblk; rw [A_eq]) t d).trans
    (by unfold Dat.fetched Dat.blockOf tokWith iblk; rw [A_eq]; rfl)

/-- The weight buffer at point t holds the block there, fetched there or (the expert unchanged) left from before. -/
theorem before_1 (c : Dev nD) (t : Fin (cfgM m).N) (d) : (dats m 0 c).before 1 t d = wts m c t :=
  ((dats m 0 c).before_in_eq_fetched 1 rfl (fun _ => rfl) (fun _ _ _ => rfl)
    (fun t => by rw [after_1]; unfold wts Dat.blockOf iblk; rw [A_eq]; try rfl) t d).trans
    (by unfold Dat.fetched Dat.blockOf wts iblk; rw [A_eq]; try rfl)

/-! ## The body obligation -/

/-- The output window, forgotten. -/
abbrev fgtOut : Fin 3 → Bool := fun | 0 => false | 1 => false | 2 => true | ⟨_ + 3, h⟩ => absurd h (Nat.not_lt.2 (Nat.le_add_left _ _))

/-- Row r of the product depends on row r of the left factor only, as far as the written-back rows go: the product
    of the token block over ANY filler and the weights agrees, on the rows inside the array, with the product over
    the zero filler. -/
def RowLocal : Prop :=
  ∀ (c : Dev nD) (t : Fin (cfgM m).N) (d : S1024x1024.Idx → Elt F .f32),
    ((cfgM m).win 2).cut ((cfgM m).grid.coords t) (k0_pay1 (tokWith m c t d) (wts m c t))
      = ((cfgM m).win 2).cut ((cfgM m).grid.coords t) (k0_pay1 (tok m c t) (wts m c t))

/-- The token buffer's rows inside the array, refilled over d, are the block over d. -/
theorem refill_0 (c : Dev nD) (t : Fin (cfgM m).N) (d : S1024x1024.Idx → Elt F .f32) :
    ((cfgM m).win 0).fill ((cfgM m).grid.coords t) d (((cfgM m).win 0).cut ((cfgM m).grid.coords t) ((dats m 0 c).after 0 t))
      = tokWith m c t d := by
  rw [after_0]
  exact congrArg (((cfgM m).win 0).fill ((cfgM m).grid.coords t) d) (((cfgM m).win 0).cut_fill _ _ _)

/-- Given row locality, the product over any filler is the named product refilled over itself. -/
theorem refill_2 (hrow : RowLocal m) (c : Dev nD) (t : Fin (cfgM m).N) (d : S1024x1024.Idx → Elt F .f32) :
    ((cfgM m).win 2).fill ((cfgM m).grid.coords t) (k0_pay1 (tokWith m c t d) (wts m c t))
        (((cfgM m).win 2).cut ((cfgM m).grid.coords t) ((dats m 0 c).after 2 t))
      = k0_pay1 (tokWith m c t d) (wts m c t) := by
  rw [after_2]
  exact ((cfgM m).win 2).fill_congr_cut ((cfgM m).grid.coords t) (hrow c t d)

/-- The obligation with the output window forgotten: the inputs' buffers pass through the body unchanged. -/
theorem obligation_forget (c : Dev nD) : BodyObligationLoose (dats (F := F) m 0 c) (defs₀ (F := F)) Variants.none () Set.univ fgtOut := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%X2, H2⟩⟩
  rw [before_0 m c t d0, before_1 m c t d1]
  iapply (sound_kernel (F := F) c Set.univ (grid0.coords t) (Memref.whole main_call0_c) (Memref.isWhole_whole _)
    (spec0_0.stage ((cfgM m).slots t 0)) (hstage0_0 (((cfgM m).slots t 0).cast nbuf0_0))
    (spec0_1.stage ((cfgM m).slots t 1)) (hstage0_1 (((cfgM m).slots t 1).cast nbuf0_1))
    (spec0_2.stage ((cfgM m).slots t 2)) (hstage0_2 (((cfgM m).slots t 2).cast nbuf0_2))
    (tokWith m c t d0) (wts m c t) _)
  isplitl [H0]; · iexact H0
  isplitl [H1]; · iexact H1
  isplitl [H2]; · iexists X2; iexact H2
  iintro ⟨H0, H1, H2⟩
  isplitl [HΦ]; · iexact HΦ
  isplitl [Ho]; · iexact Ho
  isplitl [H0]
  · iexists d0
    change _ ⊢ owns (c : Thread nD τ) (spec0_0.stage ((cfgM m).slots t 0)) fullShare
      (((cfgM m).win 0).fill ((cfgM m).grid.coords t) d0 (((cfgM m).win 0).cut ((cfgM m).grid.coords t) ((dats m 0 c).after 0 t)))
    rw [refill_0 m c t d0]; try iexact H0
  isplitl [H1]
  · rw [after_1]; iexact H1
  · iexists _; iexact H2

/-- The exact obligation, given row locality: the output buffer's rows inside the array are the product's. -/
theorem obligation_exact (hrow : RowLocal m) (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1]
  iapply (sound_kernel (F := F) c Set.univ (grid0.coords t) (Memref.whole main_call0_c) (Memref.isWhole_whole _)
    (spec0_0.stage ((cfgM m).slots t 0)) (hstage0_0 (((cfgM m).slots t 0).cast nbuf0_0))
    (spec0_1.stage ((cfgM m).slots t 1)) (hstage0_1 (((cfgM m).slots t 1).cast nbuf0_1))
    (spec0_2.stage ((cfgM m).slots t 2)) (hstage0_2 (((cfgM m).slots t 2).cast nbuf0_2))
    (tokWith m c t d0) (wts m c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    change _ ⊢ owns (c : Thread nD τ) (spec0_0.stage ((cfgM m).slots t 0)) fullShare
      (((cfgM m).win 0).fill ((cfgM m).grid.coords t) d0 (((cfgM m).win 0).cut ((cfgM m).grid.coords t) ((dats m 0 c).after 0 t)))
    rw [refill_0 m c t d0]; try iexact H0
  isplitl [H1]
  · rw [after_1]; iexact H1
  · iexists k0_pay1 (tokWith m c t d0) (wts m c t)
    change _ ⊢ owns (c : Thread nD τ) (spec0_2.stage ((cfgM m).slots t 2)) fullShare
      (((cfgM m).win 2).fill ((cfgM m).grid.coords t) (k0_pay1 (tokWith m c t d0) (wts m c t))
        (((cfgM m).win 2).cut ((cfgM m).grid.coords t) ((dats m 0 c).after 2 t)))
    rw [refill_2 m hrow c t d0]; try iexact H2

/-! ## The runs -/

set_option backward.isDefEq.respectTransparency.types false in
/-- Every weakly fair execution of @main terminates without a fault; the windows' arrays end where the data (read with
    the output forgotten) allows, every other unscoped buffer as the region found it. -/
theorem run_forget : θ_run defs (onTc (τ := τ) (main (F := F))) (s₀ m ρ)
    (Pipeline.RDat.FramePost (cfgM m) (fun c => (dats m 0 c).toRForget fgtOut) (V m)) :=
  Pipeline.RDat.θ_run_frameP pcfgs (fun _ => adm m) (0 : Fin 1) launch0 defs₀ Variants.none
    (fun c => (dats m 0 c).toRForget fgtOut) m ρ main
    (hbody := fun c => (obligation_forget m c).toRForget) (hshare := fun c => (dats m 0 c).share_full fun _ => rfl)
    (howed := fun _ _ => rfl) (V := V m) (hmain := hmain m Variants.none) (hA := A_eq m) (hpf := V_pre m)
    (hΦ := fun _ _ => rfl)

set_option backward.isDefEq.respectTransparency.types false in
/-- The same run with every array named: the output array after the last write-back is what the data computes. -/
theorem run_exact (hrow : RowLocal m) : θ_run defs (onTc (τ := τ) (main (F := F))) (s₀ m ρ)
    (Pipeline.FramePost (Pipeline.pin pcfgs fun _ => adm m) (dats m) 0 (V m)) :=
  Pipeline.θ_run_frameP pcfgs (fun _ => adm m) (dats m) (0 : Fin 1) launch0 defs₀ Variants.none m ρ main
    (hbody := obligation_exact m hrow) (hshare := fun c => (dats m 0 c).share_full fun _ => rfl)
    (howed := fun _ _ => rfl) (V := V m) (hmain := hmain m Variants.none) (hA := A_eq m) (hpf := V_pre m)
    (hΦ := fun _ _ => rfl)

/-- THE FRAME: @main runs to the end, faults nowhere, and both argument arrays end as launched — the token matrix
    is an input window's array, never written; the f32 weights are no window's array and bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(((dats m 0 c).toRForget_arrAt_iff (fgt := fgtOut) (w := 0) rfl _ _).mp ((h c).1 0)).trans
        (((dats m 0 c).arrAt_in 0 rfl _).trans ((A_eq m c 0).trans (V_main_arg0 m c))),
      ((h c).2 main_arg1 (Pipeline.mem_restRefs_of main_arg1 (by decide) (show ∀ w : Fin 3, (spec0 w).arr.view.ref ≠ main_arg1 from by decide))).trans (V_main_arg1 m c)⟩)
    (run_forget m ρ)

end Cert.KernelIdeal.Hand

end
-- ==== Proof.PayloadIdeal.lean ====
/-
  The body's product at one entry, over the extended reals.

  With floats read as extended reals the narrowing to bf16 is the identity and the matrix unit's product into a zero
  accumulator is the plain sum: entry (p, q) of the body's result is the sum over k of token entry (p, k) times weight
  entry (0, k, q). In particular row p of the result is a function of row p of the token block alone — which is why
  the words below the last, partial, token block never reach a row that is written back.
-/
import proofs.«176876_j8942121910611_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

/-- The body's one contraction: [1024, 1024] × [1024, 1024] along the left's columns and the right's rows. -/
abbrev gemmDims : DotDims S1024x1024 S1024x1024 S1024x1024 := dot_S1024x1024_S1024x1024_S1024x1024_1_0_0_1_n_n

theorem gemm_lhs_row (i : S1024x1024.Idx) (q : gemmDims.contr.Idx) : (gemmDims.lhsIdx i q 0).val = (i 0).val := by
  unfold DotDims.lhsIdx
  rw [dif_neg (show ¬(0 : Fin S1024x1024.rank) ∈ gemmDims.lhsBatch by decide), dif_pos (show (0 : Fin S1024x1024.rank) ∈ gemmDims.lhsNonContracting by decide)]
  rfl
theorem gemm_lhs_col (i : S1024x1024.Idx) (q : gemmDims.contr.Idx) : (gemmDims.lhsIdx i q 1).val = (q ⟨0, by decide⟩).val :=
  gemmDims.lhsIdx_val_of_single rfl i q
theorem gemm_rhs_row (i : S1024x1024.Idx) (q : gemmDims.contr.Idx) : (gemmDims.rhsIdx i q 0).val = (q ⟨0, by decide⟩).val :=
  gemmDims.rhsIdx_val_of_single rfl i q
theorem gemm_rhs_col (i : S1024x1024.Idx) (q : gemmDims.contr.Idx) : (gemmDims.rhsIdx i q 1).val = (i 1).val := by
  unfold DotDims.rhsIdx
  rw [dif_neg (show ¬(1 : Fin S1024x1024.rank) ∈ gemmDims.rhsBatch by decide), dif_pos (show (1 : Fin S1024x1024.rank) ∈ gemmDims.rhsNonContracting by decide)]
  rfl

/-- Entry (p, q) of the body's result: the sum over k of x(p, k) · w(0, k, q). -/
theorem pay_apply (x : Vec Ideal S1024x1024 .f32) (w : Vec Ideal S1x1024x1024 .bf16) (p q : Fin 1024) :
    k0_pay1 (F := Ideal) x w (ix2 p q) = ∑ k : Fin 1024, x (ix2 p k) * w (ix3 (0 : Fin 1) k q) := by
  unfold k0_pay1
  simp only [matmul]
  rw [Ideal.matmul_constant_zero_apply, ← Equiv.sum_comp (contrEquiv1 gemmDims 1024 rfl rfl).symm]
  refine Finset.sum_congr rfl fun k _ => ?_
  have hk := contrEquiv1_symm_val gemmDims 1024 rfl rfl k
  have el : gemmDims.lhsIdx (ix2 p q) ((contrEquiv1 gemmDims 1024 rfl rfl).symm k) = ix2 p k := funext fun a => Fin.ext (by
    match a with
    | ⟨0, _⟩ => exact gemm_lhs_row _ _
    | ⟨1, _⟩ => exact (gemm_lhs_col _ _).trans hk)
  have er : gemmDims.rhsIdx (ix2 p q) ((contrEquiv1 gemmDims 1024 rfl rfl).symm k) = ix2 k q := funext fun a => Fin.ext (by
    match a with
    | ⟨0, _⟩ => exact (gemm_rhs_row _ _).trans hk
    | ⟨1, _⟩ => exact gemm_rhs_col _ _)
  rw [el, er]
  have e2 : shapeCast S1024x1024 w shapeCasts_S1x1024x1024_S1024x1024 (ix2 k q) = w (ix3 (0 : Fin 1) k q) := by
    refine (shapeCast_dropUnit_apply ![1024, 1024] w shapeCasts_S1x1024x1024_S1024x1024 (ix2 k q)).trans (congrArg w (funext fun a => ?_))
    match a with
    | ⟨0, _⟩ => rfl
    | ⟨1, _⟩ => rfl
    | ⟨2, _⟩ => rfl
  show x (ix2 p k) * shapeCast S1024x1024 w shapeCasts_S1x1024x1024_S1024x1024 (ix2 k q) = x (ix2 p k) * w (ix3 (0 : Fin 1) k q)
  rw [e2]

/-- Row p of the result depends on row p of the left factor only. -/
theorem pay_row_local (x x' : Vec Ideal S1024x1024 .f32) (w : Vec Ideal S1x1024x1024 .bf16) (p q : Fin 1024)
    (h : ∀ k : Fin 1024, x (ix2 p k) = x' (ix2 p k)) :
    k0_pay1 (F := Ideal) x w (ix2 p q) = k0_pay1 (F := Ideal) x' w (ix2 p q) := by
  rw [pay_apply, pay_apply]
  exact Finset.sum_congr rfl fun k _ => by rw [h k]

end Cert.KernelIdeal.Hand

end
-- ==== Proof.SpecGroupedGemm.lean ====
/-
  The grouped matrix product, as one function of the two argument arrays.

  The 66048 token rows are split among eight experts in consecutive runs of 12288, 10240, 9216, 8192, 7168, 7168, 6144
  and 5632 rows (offsets 0, 12288, 22528, 31744, 39936, 47104, 54272, 60416, 66048). Row r of the result is row r of
  the tokens times the weight matrix of the expert that owns row r:

      G a b (r, n) = Σ_k a(r, k) · b(owner r, k, n).

  Every offset but the last is a multiple of 1024, so each run of 1024 consecutive rows starting at a multiple of
  1024 has ONE owner: tile j = r / 1024 is owned by tileOwner j, and owner r = tileOwner (r / 1024).
-/
import Idealize.ShloMosaic.Lib.ValueIdx
import Idealize.ShloMosaic.PureOps.Ideal

noncomputable section

namespace Cert.GroupedGemm

open Idealize.ShloMosaic Idealize.ShloMosaic.ValueIdx
open scoped BigOperators

/-- The expert that owns token row r. -/
def owner (r : Nat) : Fin 8 :=
  if r < 12288 then 0 else if r < 22528 then 1 else if r < 31744 then 2 else if r < 39936 then 3
  else if r < 47104 then 4 else if r < 54272 then 5 else if r < 60416 then 6 else 7

/-- The expert that owns the 1024-row tile j (12, 10, 9, 8, 7, 7, 6 tiles, then the 5½ of the last expert). -/
def tileOwner (j : Nat) : Fin 8 :=
  if j < 12 then 0 else if j < 22 then 1 else if j < 31 then 2 else if j < 39 then 3
  else if j < 46 then 4 else if j < 53 then 5 else if j < 59 then 6 else 7

/-- A row's owner is its tile's owner: the offsets are multiples of 1024. -/
theorem owner_eq_tileOwner (r : Nat) : owner r = tileOwner (r / 1024) := by
  unfold owner tileOwner
  have h1 : r < 12288 ↔ r / 1024 < 12 := by omega
  have h2 : r < 22528 ↔ r / 1024 < 22 := by omega
  have h3 : r < 31744 ↔ r / 1024 < 31 := by omega
  have h4 : r < 39936 ↔ r / 1024 < 39 := by omega
  have h5 : r < 47104 ↔ r / 1024 < 46 := by omega
  have h6 : r < 54272 ↔ r / 1024 < 53 := by omega
  have h7 : r < 60416 ↔ r / 1024 < 59 := by omega
  simp only [h1, h2, h3, h4, h5, h6, h7]

/-- The result: row r of the tokens times the weights of row r's owner. -/
def G (a : (⟨2, ![66048, 1024]⟩ : Shape).Idx → EReal) (b : (⟨3, ![8, 1024, 1024]⟩ : Shape).Idx → EReal) :
    (⟨2, ![66048, 1024]⟩ : Shape).Idx → EReal :=
  fun i => ∑ k : Fin 1024, a (ix2 (i 0 : Fin 66048) k) * b (ix3 (owner (i 0).val) k (i 1 : Fin 1024))

theorem G_apply (a : (⟨2, ![66048, 1024]⟩ : Shape).Idx → EReal) (b : (⟨3, ![8, 1024, 1024]⟩ : Shape).Idx → EReal)
    (r : Fin 66048) (n : Fin 1024) :
    G a b (ix2 r n) = ∑ k : Fin 1024, a (ix2 r k) * b (ix3 (owner r.val) k n) := rfl

end Cert.GroupedGemm

end
-- ==== Proof.ValueIdeal.lean ====
/-
  The kernel's result array, over the extended reals, is the grouped product G.

  At grid point t the pipeline writes back rows [1024·t, 1024·t + rows t) of the output buffer, rows t = 1024 for
  t < 64 and 512 for the last, partial, tile. Entry (p, q) of the buffer is Σ_k tok(p, k) · wts(0, k, q) — and for
  p < rows t the token row is row 1024·t + p of the token matrix, whatever lies below the block, while the weights are
  those of the expert the table names at t, who owns every row of tile t. So what point t writes back is G read
  through its block; the 65 blocks cover the array (row r lies in the block of t = r / 1024); hence the array ends at G.
-/
import proofs.«176876_j8942121910611_2_alg».proof.Proof.DataKernelIdeal
import proofs.«176876_j8942121910611_2_alg».proof.Proof.PayloadIdeal
import proofs.«176876_j8942121910611_2_alg».proof.Proof.SpecGroupedGemm
import Idealize.ShloMosaic.Lib.Pipeline.Value
import Idealize.ShloMosaic.Lib.ValueIdx

set_option maxRecDepth 16384

noncomputable section

namespace Cert.KernelIdeal.Hand

open Cert.KernelIdeal Cert.KernelIdeal.Gen Cert.GroupedGemm
open Idealize.ShloMosaic Idealize.ShloMosaic.TcCoe Idealize.ShloMosaic.ValueIdx
open Idealize.SL.Sem
open Idealize.ShloMosaic.Pipeline (Dat Cfg Window)
open scoped BigOperators

variable (m : (ℓ : Loc nD τ sig) → Buf (Elt Ideal) ℓ) (ρ : Dev nD → PrngReg)

/-! ## The schedule, decided once over the 65 grid points -/

/-- The token and output windows' block at point t is block (t, 0). -/
theorem tokIndex : ∀ t : Fin grid0.N, cc0_transform_0 (grid0.coords t) = ![t.val, 0] := by decide +kernel
theorem outIndex : ∀ t : Fin grid0.N, cc0_transform_2 (grid0.coords t) = ![t.val, 0] := by decide +kernel
/-- Their transfers move 1024 rows, but 512 at the last point, and all 1024 columns. -/
theorem rowsMoved : ∀ t : Fin grid0.N,
    (Pipeline.Clip.of (cc0_transform_0 (grid0.coords t) 0) 1024 66048).extent 1024 = (if t.val < 64 then 1024 else 512) := by decide +kernel
theorem colsMoved : ∀ t : Fin grid0.N,
    (Pipeline.Clip.of (cc0_transform_0 (grid0.coords t) 1) 1024 1024).extent 1024 = 1024 := by decide +kernel
/-- The table's entry at point t is the owner of tile t. -/
theorem tableOwner : ∀ t : Fin grid0.N,
    (lit0 (S65.rowMajor ((Rect.unit (s := S65) ![(Scalar.indexCast (BitVec.ofNat 32 (grid0.coords t 0).val)).toNat] S1.size
      (k0_off1_inb (grid0.coords t))).emb (Shape.Idx.first (numel1_S1.symm ▸ Nat.one_pos))))).toNat = (tileOwner t.val).val := by
  decide +kernel

/-- The rows point t moves. -/
def rows (t : Nat) : Nat := if t < 64 then 1024 else 512

theorem tok_index (t : Fin (cfgM m).N) : ((cfgM m).win 0).index t = ![t.val, 0] := tokIndex t
theorem out_index (t : Fin (cfgM m).N) : ((cfgM m).win 2).index t = ![t.val, 0] := outIndex t
theorem wt_index (t : Fin (cfgM m).N) : ((cfgM m).win 1).index t = ![(tileOwner t.val).val, 0, 0] := by
  funext a
  match a with
  | ⟨0, _⟩ =>
    show ((tbl m 0 : S65.Idx → BitVec 32) _).toNat = _
    rw [tbl_eq]; exact tableOwner t
  | ⟨1, _⟩ => rfl
  | ⟨2, _⟩ => rfl

theorem xrows_0 (t : Fin (cfgM m).N) : ((cfgM m).win 0).xsize ((cfgM m).grid.coords t) (0 : Fin 2) = rows t.val := rowsMoved t
theorem xcols_0 (t : Fin (cfgM m).N) : ((cfgM m).win 0).xsize ((cfgM m).grid.coords t) (1 : Fin 2) = 1024 := colsMoved t
theorem xrows_2 (t : Fin (cfgM m).N) : ((cfgM m).win 2).xsize ((cfgM m).grid.coords t) (0 : Fin 2) = rows t.val := rowsMoved t
theorem xcols_2 (t : Fin (cfgM m).N) : ((cfgM m).win 2).xsize ((cfgM m).grid.coords t) (1 : Fin 2) = 1024 := colsMoved t

/-! ## The blocks at an entry -/

/-- A token row that the fetch at t moves is row 1024·t + p of the token matrix. -/
theorem tokWith_apply (c : Dev nD) (t : Fin (cfgM m).N) (d : S1024x1024.Idx → Elt Ideal .f32) (p k : Fin 1024)
    (hp : p.val < rows t.val) (hb : 1024 * t.val + p.val < 66048) :
    tokWith m c t d (ix2 p k) = (V m c main_arg0 : S66048x1024.Idx → EReal) (ix2 (⟨1024 * t.val + p.val, hb⟩ : Fin 66048) k) := by
  have hp' : p.val < ((cfgM m).win 0).xsize ((cfgM m).grid.coords t) (0 : Fin 2) := by rw [xrows_0]; exact hp
  have hk' : k.val < ((cfgM m).win 0).xsize ((cfgM m).grid.coords t) (1 : Fin 2) := by rw [xcols_0]; exact k.isLt
  let j : (((cfgM m).win 0).xblock ((cfgM m).grid.coords t)).Idx := fun a => match a with
    | ⟨0, _⟩ => ⟨p.val, hp'⟩
    | ⟨1, _⟩ => ⟨k.val, hk'⟩
  have e : ix2 p k = ((cfgM m).win 0).xinj ((cfgM m).grid.coords t) j := funext fun a => Fin.ext (by
    match a with
    | ⟨0, _⟩ => rfl
    | ⟨1, _⟩ => rfl)
  unfold tokWith
  rw [e]
  refine (((cfgM m).win 0).fill_xinj ((cfgM m).grid.coords t) d (iblk m c 0 t) j).trans ?_
  show (V m c main_arg0 : S66048x1024.Idx → EReal) ((((cfgM m).win 0).blk t).view.emb j) = _
  refine congrArg _ (funext fun a => Fin.ext ?_)
  match a with
  | ⟨0, _⟩ =>
    show ((cfgM m).win 0).index t (0 : Fin 2) * 1024 + 1 * p.val = 1024 * t.val + p.val
    rw [tok_index]; show t.val * 1024 + 1 * p.val = 1024 * t.val + p.val; omega
  | ⟨1, _⟩ =>
    show ((cfgM m).win 0).index t (1 : Fin 2) * 1024 + 1 * k.val = k.val
    rw [tok_index]; show 0 * 1024 + 1 * k.val = k.val; omega

/-- The weight block at t is the f32 weight matrix of tile t's owner (the narrowing is the identity here). -/
theorem wts_apply (c : Dev nD) (t : Fin (cfgM m).N) (k q : Fin 1024) :
    wts m c t (ix3 (0 : Fin 1) k q)
      = (m ((c : Thread nD τ).loc main_arg1) : S8x1024x1024.Idx → EReal) (ix3 (tileOwner t.val) k q) := by
  show (V m c main_call0_v0 : S8x1024x1024.Idx → EReal) ((((cfgM m).win 1).blk t).view.emb (ix3 (0 : Fin 1) k q)) = _
  rw [V_weights]
  show (m ((c : Thread nD τ).loc main_arg1) : S8x1024x1024.Idx → EReal) _ = _
  refine congrArg _ (funext fun a => Fin.ext ?_)
  match a with
  | ⟨0, _⟩ =>
    show ((cfgM m).win 1).index t (0 : Fin 3) * 1 + 1 * 0 = (tileOwner t.val).val
    rw [wt_index]; show (tileOwner t.val).val * 1 + 1 * 0 = _; omega
  | ⟨1, _⟩ =>
    show ((cfgM m).win 1).index t (1 : Fin 3) * 1024 + 1 * k.val = k.val
    rw [wt_index]; show 0 * 1024 + 1 * k.val = k.val; omega
  | ⟨2, _⟩ =>
    show ((cfgM m).win 1).index t (2 : Fin 3) * 1024 + 1 * q.val = q.val
    rw [wt_index]; show 0 * 1024 + 1 * q.val = q.val; omega

/-! ## Row locality -/

/-- On the rows written back the product does not see the words below the token block. -/
theorem rowLocal : RowLocal (F := Ideal) m := by
  intro c t d
  refine funext fun (j : (⟨2, ((cfgM m).win 2).xsize ((cfgM m).grid.coords t)⟩ : Shape).Idx) => ?_
  have h0 : (j (0 : Fin 2)).val < rows t.val := Nat.lt_of_lt_of_eq (j (0 : Fin 2)).isLt (xrows_2 m t)
  have h1 : (j (1 : Fin 2)).val < 1024 := Nat.lt_of_lt_of_eq (j (1 : Fin 2)).isLt (xcols_2 m t)
  have ht : t.val < 65 := t.isLt
  have hr : rows t.val ≤ 1024 := by unfold rows; split <;> omega
  have hb : 1024 * t.val + (j (0 : Fin 2)).val < 66048 := by unfold rows at h0; split at h0 <;> omega
  have e : ((cfgM m).win 2).xinj ((cfgM m).grid.coords t) j = ix2 (⟨(j (0 : Fin 2)).val, by omega⟩ : Fin 1024) (⟨(j (1 : Fin 2)).val, h1⟩ : Fin 1024) :=
    funext fun a => Fin.ext (by
      match a with
      | ⟨0, _⟩ => rfl
      | ⟨1, _⟩ => rfl)
  show k0_pay1 (tokWith m c t d) (wts m c t) (((cfgM m).win 2).xinj ((cfgM m).grid.coords t) j)
    = k0_pay1 (tok m c t) (wts m c t) (((cfgM m).win 2).xinj ((cfgM m).grid.coords t) j)
  rw [e]
  refine pay_row_local _ _ _ _ _ fun k => ?_
  unfold tok
  rw [tokWith_apply m c t d _ k h0 hb, tokWith_apply m c t _ _ k h0 hb]

/-! ## What point t writes back, and the cover -/

/-- Point t writes back block t of G of the token matrix and the f32 weights. -/
theorem flushed_eq (c : Dev nD) (t : Fin (cfgM m).N) :
    (dats m 0 c).flushed 2 t = (((cfgM m).win 2).blk t).view.read (Elt Ideal)
      (G (V m c main_arg0) (m ((c : Thread nD τ).loc main_arg1))) := by
  show ((cfgM m).win 2).cut ((cfgM m).grid.coords t) ((dats m 0 c).after 2 t) = _
  rw [after_2]
  refine funext fun (j : (⟨2, ((cfgM m).win 2).xsize ((cfgM m).grid.coords t)⟩ : Shape).Idx) => ?_
  have h0 : (j (0 : Fin 2)).val < rows t.val := Nat.lt_of_lt_of_eq (j (0 : Fin 2)).isLt (xrows_2 m t)
  have h1 : (j (1 : Fin 2)).val < 1024 := Nat.lt_of_lt_of_eq (j (1 : Fin 2)).isLt (xcols_2 m t)
  have ht : t.val < 65 := t.isLt
  have hr : rows t.val ≤ 1024 := by unfold rows; split <;> omega
  have hb : 1024 * t.val + (j (0 : Fin 2)).val < 66048 := by unfold rows at h0; split at h0 <;> omega
  have el : ((cfgM m).win 2).xinj ((cfgM m).grid.coords t) j = ix2 (⟨(j (0 : Fin 2)).val, by omega⟩ : Fin 1024) (⟨(j (1 : Fin 2)).val, h1⟩ : Fin 1024) :=
    funext fun a => Fin.ext (by
      match a with
      | ⟨0, _⟩ => rfl
      | ⟨1, _⟩ => rfl)
  have er : (((cfgM m).win 2).blk t).view.emb j = ix2 (⟨1024 * t.val + (j (0 : Fin 2)).val, hb⟩ : Fin 66048) (⟨(j (1 : Fin 2)).val, h1⟩ : Fin 1024) :=
    funext fun a => Fin.ext (by
      match a with
      | ⟨0, _⟩ =>
        show ((cfgM m).win 2).index t (0 : Fin 2) * 1024 + 1 * (j (0 : Fin 2)).val = 1024 * t.val + (j (0 : Fin 2)).val
        rw [out_index]; show t.val * 1024 + 1 * (j (0 : Fin 2)).val = _; omega
      | ⟨1, _⟩ =>
        show ((cfgM m).win 2).index t (1 : Fin 2) * 1024 + 1 * (j (1 : Fin 2)).val = (j (1 : Fin 2)).val
        rw [out_index]; show 0 * 1024 + 1 * (j (1 : Fin 2)).val = _; omega)
  show k0_pay1 (tok m c t) (wts m c t) (((cfgM m).win 2).xinj ((cfgM m).grid.coords t) j)
    = G (V m c main_arg0) (m ((c : Thread nD τ).loc main_arg1)) ((((cfgM m).win 2).blk t).view.emb j)
  rw [el, er, pay_apply, G_apply]
  have how : owner (1024 * t.val + (j (0 : Fin 2)).val) = tileOwner t.val := by
    rw [owner_eq_tileOwner]; congr 1; omega
  refine Finset.sum_congr rfl fun k _ => ?_
  unfold tok
  rw [tokWith_apply m c t _ _ k h0 hb, wts_apply, how]

/-- Every point writes its block back: the block index moves at every step. -/
theorem flush_all (t : Fin (cfgM m).N) : ((cfgM m).win 2).flush t = true := by
  unfold Pipeline.Window.flush
  rw [show ((cfgM m).win 2).isOut = true from rfl, Bool.true_and, Bool.or_eq_true, decide_eq_true_eq, decide_eq_true_eq]
  by_cases h : t.val + 1 = (cfgM m).grid.N
  · exact Or.inl h
  · have hN : (cfgM m).grid.N = 65 := rfl
    have ht : t.val < 65 := t.isLt
    refine Or.inr ⟨by omega, fun he => ?_⟩
    have h0 := congrFun he (0 : Fin 2)
    rw [out_index, out_index] at h0
    have : t.val + 1 = t.val := h0
    omega

/-- Row r of the array lies in the block of point r / 1024. -/
theorem cover (i : S66048x1024.Idx) :
    ∃ t : Fin (cfgM m).N, ((cfgM m).win 2).flush t = true ∧ i ∈ (((cfgM m).win 2).blk t).view.set := by
  have hi0 : (i 0).val < 66048 := (i 0).isLt
  have hi1 : (i 1).val < 1024 := (i 1).isLt
  let t' : Fin (cfgM m).N := ⟨(i 0).val / 1024, by show (i 0).val / 1024 < 65; omega⟩
  refine ⟨t', flush_all m t', ?_⟩
  have hset : (((cfgM m).win 2).blk t').view.set = (((cfgM m).win 2).rect t').set :=
    View.set_slice_whole main_v0 (((cfgM m).win 2).rect t')
  rw [hset]
  refine Rect.mem_set_unit.mpr fun a => ?_
  match a with
  | ⟨0, _⟩ =>
    show ((cfgM m).win 2).index t' (0 : Fin 2) * 1024 ≤ (i 0).val ∧ (i 0).val < ((cfgM m).win 2).index t' (0 : Fin 2) * 1024 + ((cfgM m).win 2).xsize ((cfgM m).grid.coords t') (0 : Fin 2)
    rw [out_index, xrows_2]
    show (i 0).val / 1024 * 1024 ≤ (i 0).val ∧ (i 0).val < (i 0).val / 1024 * 1024 + rows ((i 0).val / 1024)
    unfold rows; split <;> omega
  | ⟨1, _⟩ =>
    show ((cfgM m).win 2).index t' (1 : Fin 2) * 1024 ≤ (i 1).val ∧ (i 1).val < ((cfgM m).win 2).index t' (1 : Fin 2) * 1024 + ((cfgM m).win 2).xsize ((cfgM m).grid.coords t') (1 : Fin 2)
    rw [out_index, xcols_2]
    show 0 * 1024 ≤ (i 1).val ∧ (i 1).val < 0 * 1024 + 1024
    omega

/-- THE ARRAY after the run is G of the token matrix and the f32 weights as launched. -/
theorem final (c : Dev nD) :
    (dats m 0 c).arrAt 2 (cfgM m).N = G (m ((c : Thread nD τ).loc main_arg0)) (m ((c : Thread nD τ).loc main_arg1)) := by
  rw [← V_main_arg0 m c]
  exact (dats m 0 c).arrAt_eq_of_cover 2 _ (fun t _ => flushed_eq m c t) (cover m)

/-! ## The run, read -/

/-- Every weakly fair execution of @main terminates without a fault, with the result at G of the arguments and the
    arguments as launched. -/
theorem run_value : θ_run defs (onTc (τ := τ) (main (F := Ideal))) ⟨m, fun _ => 0, ρ⟩ (fun r => ∀ c : Dev nD,
      r.2.mem ((c.tc : Thread nD τ).loc main_v0) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 2).trans (final m c),
      ((h c).1 0).trans (((dats m 0 c).arrAt_in 0 rfl _).trans ((A_eq m c 0).trans (V_main_arg0 m c))),
      ((h c).2 main_arg1 (Pipeline.mem_restRefs_of main_arg1 (by decide) (show ∀ w : Fin 3, (spec0 w).arr.view.ref ≠ main_arg1 from by decide))).trans (V_main_arg1 m c)⟩)
    (run_exact m ρ (rowLocal m))

end Cert.KernelIdeal.Hand

end
-- ==== Proof.LibConcatPrefix.lean ====
/-
  A concatenation of many pieces read at an index needs the total extent of the pieces BEFORE the one the index falls
  in. That number depends on the pieces' shapes alone, not on their contents: so it can be computed once on the list of
  shapes — a closed term, decided by evaluation — however the pieces themselves are spelt (products of the arguments,
  say, which no evaluation touches).
-/
import Idealize.ShloMosaic.Lib.Pipeline.Value

namespace Cert.LibConcatPrefix

open Idealize.ShloMosaic

/-- The summed extents along axis a of the first k pieces of xs, as the concatenation's read-at-an-index lemma asks
    for them, from the same sum over the pieces' shapes: if the shapes of xs are the list shapes, and the first k of
    shapes have extents summing to pre, then so have the first k pieces of xs. -/
theorem take_sizes_sum {α : Type} {t : Shape} (a : Fin t.rank) (xs : List ((s : Shape) × (s.Idx → α))) (shapes : List Shape)
    (h : xs.map (·.1) = shapes) (k pre : Nat)
    (hp : ((shapes.take k).map fun s => if h : s.rank = t.rank then s.size (a.cast h.symm) else 0).sum = pre) :
    (((xs.take k).map (·.1)).map fun s => if h : s.rank = t.rank then s.size (a.cast h.symm) else 0).sum = pre := by
  rw [List.map_take, h]; exact hp

end Cert.LibConcatPrefix
-- ==== Proof.RefIsGroupedGemm.lean ====
/-
  The reference computes the grouped product.

  The reference cuts the token matrix into the eight experts' runs of rows, multiplies each run by its expert's
  weight matrix (a [1, 1024, 1024] slice of the weights with the unit axis dropped) and lays the eight products end to
  end along the rows. Read at entry (r, n): r falls in exactly one run, the one of owner r, at local row
  r − offset; the product there is Σ_k a(r, k) · b(owner r, k, n). That is G.
-/
import proofs.«176876_j8942121910611_2_alg».proof.Proof.Gen.ReferenceIdeal.Read
import proofs.«176876_j8942121910611_2_alg».proof.Proof.SpecGroupedGemm
import proofs.«176876_j8942121910611_2_alg».proof.Proof.LibConcatPrefix
import Idealize.ShloMosaic.Lib.Pipeline.Value
import Idealize.ShloMosaic.Lib.ValueIdx

set_option maxRecDepth 16384

noncomputable section

namespace Cert.ReferenceIdeal.RefValue

open Cert.ReferenceIdeal Cert.ReferenceIdeal.Gen Cert.ReferenceIdeal.Read
open Idealize.ShloMosaic Idealize.ShloMosaic.ValueIdx Cert.GroupedGemm Cert.LibConcatPrefix
open scoped BigOperators

/-- Expert 0's piece — rows [0, 12288) of the tokens times weight matrix 0 — at local row r − 0. -/
theorem piece_0 (x0 : S66048x1024.Idx → EReal) (x1 : S8x1024x1024.Idx → EReal) (r : Fin 66048) (q : Fin 1024)
    (hlo : 0 ≤ r.val) (hhi : r.val < 12288) :
    Read.val_main_v3 (F := Ideal) x0 x1 (ix2 (⟨r.val - 0, by omega⟩ : Fin 12288) q)
      = ∑ k : Fin 1024, x0 (ix2 r k) * x1 (ix3 (0 : Fin 8) k q) := by
  rw [Read.val_main_v3_apply]
  refine Finset.sum_congr rfl fun k _ => ?_
  rw [Read.val_main_v0_apply, Read.val_main_v2_apply, Read.val_main_v1_apply]
  have hk : k.val < 1024 := k.isLt
  have hq : q.val < 1024 := q.isLt
  congr 1
  · refine congrArg x0 (funext fun a => Fin.ext ?_)
    match a with
    | ⟨0, _⟩ => show (r.val - 0) = r.val; omega
    | ⟨1, _⟩ => rfl
  · refine congrArg x1 (funext fun a => Fin.ext ?_)
    match a with
    | ⟨0, _⟩ => rfl
    | ⟨1, _⟩ => show (k.val * 1024 + q.val) / 1024 % 1024 = k.val; omega
    | ⟨2, _⟩ => show (k.val * 1024 + q.val) % 1024 = q.val; omega

/-- Expert 1's piece — rows [12288, 22528) of the tokens times weight matrix 1 — at local row r − 12288. -/
theorem piece_1 (x0 : S66048x1024.Idx → EReal) (x1 : S8x1024x1024.Idx → EReal) (r : Fin 66048) (q : Fin 1024)
    (hlo : 12288 ≤ r.val) (hhi : r.val < 22528) :
    Read.val_main_v7 (F := Ideal) x0 x1 (ix2 (⟨r.val - 12288, by omega⟩ : Fin 10240) q)
      = ∑ k : Fin 1024, x0 (ix2 r k) * x1 (ix3 (1 : Fin 8) k q) := by
  rw [Read.val_main_v7_apply]
  refine Finset.sum_congr rfl fun k _ => ?_
  rw [Read.val_main_v4_apply, Read.val_main_v6_apply, Read.val_main_v5_apply]
  have hk : k.val < 1024 := k.isLt
  have hq : q.val < 1024 := q.isLt
  congr 1
  · refine congrArg x0 (funext fun a => Fin.ext ?_)
    match a with
    | ⟨0, _⟩ => show 12288 + (r.val - 12288) = r.val; omega
    | ⟨1, _⟩ => rfl
  · refine congrArg x1 (funext fun a => Fin.ext ?_)
    match a with
    | ⟨0, _⟩ => rfl
    | ⟨1, _⟩ => show (k.val * 1024 + q.val) / 1024 % 1024 = k.val; omega
    | ⟨2, _⟩ => show (k.val * 1024 + q.val) % 1024 = q.val; omega

/-- Expert 2's piece — rows [22528, 31744) of the tokens times weight matrix 2 — at local row r − 22528. -/
theorem piece_2 (x0 : S66048x1024.Idx → EReal) (x1 : S8x1024x1024.Idx → EReal) (r : Fin 66048) (q : Fin 1024)
    (hlo : 22528 ≤ r.val) (hhi : r.val < 31744) :
    Read.val_main_v11 (F := Ideal) x0 x1 (ix2 (⟨r.val - 22528, by omega⟩ : Fin 9216) q)
      = ∑ k : Fin 1024, x0 (ix2 r k) * x1 (ix3 (2 : Fin 8) k q) := by
  rw [Read.val_main_v11_apply]
  refine Finset.sum_congr rfl fun k _ => ?_
  rw [Read.val_main_v8_apply, Read.val_main_v10_apply, Read.val_main_v9_apply]
  have hk : k.val < 1024 := k.isLt
  have hq : q.val < 1024 := q.isLt
  congr 1
  · refine congrArg x0 (funext fun a => Fin.ext ?_)
    match a with
    | ⟨0, _⟩ => show 22528 + (r.val - 22528) = r.val; omega
    | ⟨1, _⟩ => rfl
  · refine congrArg x1 (funext fun a => Fin.ext ?_)
    match a with
    | ⟨0, _⟩ => rfl
    | ⟨1, _⟩ => show (k.val * 1024 + q.val) / 1024 % 1024 = k.val; omega
    | ⟨2, _⟩ => show (k.val * 1024 + q.val) % 1024 = q.val; omega

/-- Expert 3's piece — rows [31744, 39936) of the tokens times weight matrix 3 — at local row r − 31744. -/
theorem piece_3 (x0 : S66048x1024.Idx → EReal) (x1 : S8x1024x1024.Idx → EReal) (r : Fin 66048) (q : Fin 1024)
    (hlo : 31744 ≤ r.val) (hhi : r.val < 39936) :
    Read.val_main_v15 (F := Ideal) x0 x1 (ix2 (⟨r.val - 31744, by omega⟩ : Fin 8192) q)
      = ∑ k : Fin 1024, x0 (ix2 r k) * x1 (ix3 (3 : Fin 8) k q) := by
  rw [Read.val_main_v15_apply]
  refine Finset.sum_congr rfl fun k _ => ?_
  rw [Read.val_main_v12_apply, Read.val_main_v14_apply, Read.val_main_v13_apply]
  have hk : k.val < 1024 := k.isLt
  have hq : q.val < 1024 := q.isLt
  congr 1
  · refine congrArg x0 (funext fun a => Fin.ext ?_)
    match a with
    | ⟨0, _⟩ => show 31744 + (r.val - 31744) = r.val; omega
    | ⟨1, _⟩ => rfl
  · refine congrArg x1 (funext fun a => Fin.ext ?_)
    match a with
    | ⟨0, _⟩ => rfl
    | ⟨1, _⟩ => show (k.val * 1024 + q.val) / 1024 % 1024 = k.val; omega
    | ⟨2, _⟩ => show (k.val * 1024 + q.val) % 1024 = q.val; omega

/-- Expert 4's piece — rows [39936, 47104) of the tokens times weight matrix 4 — at local row r − 39936. -/
theorem piece_4 (x0 : S66048x1024.Idx → EReal) (x1 : S8x1024x1024.Idx → EReal) (r : Fin 66048) (q : Fin 1024)
    (hlo : 39936 ≤ r.val) (hhi : r.val < 47104) :
    Read.val_main_v19 (F := Ideal) x0 x1 (ix2 (⟨r.val - 39936, by omega⟩ : Fin 7168) q)
      = ∑ k : Fin 1024, x0 (ix2 r k) * x1 (ix3 (4 : Fin 8) k q) := by
  rw [Read.val_main_v19_apply]
  refine Finset.sum_congr rfl fun k _ => ?_
  rw [Read.val_main_v16_apply, Read.val_main_v18_apply, Read.val_main_v17_apply]
  have hk : k.val < 1024 := k.isLt
  have hq : q.val < 1024 := q.isLt
  congr 1
  · refine congrArg x0 (funext fun a => Fin.ext ?_)
    match a with
    | ⟨0, _⟩ => show 39936 + (r.val - 39936) = r.val; omega
    | ⟨1, _⟩ => rfl
  · refine congrArg x1 (funext fun a => Fin.ext ?_)
    match a with
    | ⟨0, _⟩ => rfl
    | ⟨1, _⟩ => show (k.val * 1024 + q.val) / 1024 % 1024 = k.val; omega
    | ⟨2, _⟩ => show (k.val * 1024 + q.val) % 1024 = q.val; omega

/-- Expert 5's piece — rows [47104, 54272) of the tokens times weight matrix 5 — at local row r − 47104. -/
theorem piece_5 (x0 : S66048x1024.Idx → EReal) (x1 : S8x1024x1024.Idx → EReal) (r : Fin 66048) (q : Fin 1024)
    (hlo : 47104 ≤ r.val) (hhi : r.val < 54272) :
    Read.val_main_v23 (F := Ideal) x0 x1 (ix2 (⟨r.val - 47104, by omega⟩ : Fin 7168) q)
      = ∑ k : Fin 1024, x0 (ix2 r k) * x1 (ix3 (5 : Fin 8) k q) := by
  rw [Read.val_main_v23_apply]
  refine Finset.sum_congr rfl fun k _ => ?_
  rw [Read.val_main_v20_apply, Read.val_main_v22_apply, Read.val_main_v21_apply]
  have hk : k.val < 1024 := k.isLt
  have hq : q.val < 1024 := q.isLt
  congr 1
  · refine congrArg x0 (funext fun a => Fin.ext ?_)
    match a with
    | ⟨0, _⟩ => show 47104 + (r.val - 47104) = r.val; omega
    | ⟨1, _⟩ => rfl
  · refine congrArg x1 (funext fun a => Fin.ext ?_)
    match a with
    | ⟨0, _⟩ => rfl
    | ⟨1, _⟩ => show (k.val * 1024 + q.val) / 1024 % 1024 = k.val; omega
    | ⟨2, _⟩ => show (k.val * 1024 + q.val) % 1024 = q.val; omega

/-- Expert 6's piece — rows [54272, 60416) of the tokens times weight matrix 6 — at local row r − 54272. -/
theorem piece_6 (x0 : S66048x1024.Idx → EReal) (x1 : S8x1024x1024.Idx → EReal) (r : Fin 66048) (q : Fin 1024)
    (hlo : 54272 ≤ r.val) (hhi : r.val < 60416) :
    Read.val_main_v27 (F := Ideal) x0 x1 (ix2 (⟨r.val - 54272, by omega⟩ : Fin 6144) q)
      = ∑ k : Fin 1024, x0 (ix2 r k) * x1 (ix3 (6 : Fin 8) k q) := by
  rw [Read.val_main_v27_apply]
  refine Finset.sum_congr rfl fun k _ => ?_
  rw [Read.val_main_v24_apply, Read.val_main_v26_apply, Read.val_main_v25_apply]
  have hk : k.val < 1024 := k.isLt
  have hq : q.val < 1024 := q.isLt
  congr 1
  · refine congrArg x0 (funext fun a => Fin.ext ?_)
    match a with
    | ⟨0, _⟩ => show 54272 + (r.val - 54272) = r.val; omega
    | ⟨1, _⟩ => rfl
  · refine congrArg x1 (funext fun a => Fin.ext ?_)
    match a with
    | ⟨0, _⟩ => rfl
    | ⟨1, _⟩ => show (k.val * 1024 + q.val) / 1024 % 1024 = k.val; omega
    | ⟨2, _⟩ => show (k.val * 1024 + q.val) % 1024 = q.val; omega

/-- Expert 7's piece — rows [60416, 66048) of the tokens times weight matrix 7 — at local row r − 60416. -/
theorem piece_7 (x0 : S66048x1024.Idx → EReal) (x1 : S8x1024x1024.Idx → EReal) (r : Fin 66048) (q : Fin 1024)
    (hlo : 60416 ≤ r.val) (hhi : r.val < 66048) :
    Read.val_main_v31 (F := Ideal) x0 x1 (ix2 (⟨r.val - 60416, by omega⟩ : Fin 5632) q)
      = ∑ k : Fin 1024, x0 (ix2 r k) * x1 (ix3 (7 : Fin 8) k q) := by
  rw [Read.val_main_v31_apply]
  refine Finset.sum_congr rfl fun k _ => ?_
  rw [Read.val_main_v28_apply, Read.val_main_v30_apply, Read.val_main_v29_apply]
  have hk : k.val < 1024 := k.isLt
  have hq : q.val < 1024 := q.isLt
  congr 1
  · refine congrArg x0 (funext fun a => Fin.ext ?_)
    match a with
    | ⟨0, _⟩ => show 60416 + (r.val - 60416) = r.val; omega
    | ⟨1, _⟩ => rfl
  · refine congrArg x1 (funext fun a => Fin.ext ?_)
    match a with
    | ⟨0, _⟩ => rfl
    | ⟨1, _⟩ => show (k.val * 1024 + q.val) / 1024 % 1024 = k.val; omega
    | ⟨2, _⟩ => show (k.val * 1024 + q.val) % 1024 = q.val; omega

/-- The eight runs' shapes, in order, and the eight products the reference lays end to end. -/
abbrev runShapes : List Shape := [S12288x1024, S10240x1024, S9216x1024, S8192x1024, S7168x1024, S7168x1024, S6144x1024, S5632x1024]
abbrev runs (x0 : S66048x1024.Idx → EReal) (x1 : S8x1024x1024.Idx → EReal) : List ((s : Shape) × (s.Idx → EReal)) :=
  [⟨S12288x1024, Read.val_main_v3 (F := Ideal) x0 x1⟩, ⟨S10240x1024, Read.val_main_v7 (F := Ideal) x0 x1⟩, ⟨S9216x1024, Read.val_main_v11 (F := Ideal) x0 x1⟩, ⟨S8192x1024, Read.val_main_v15 (F := Ideal) x0 x1⟩, ⟨S7168x1024, Read.val_main_v19 (F := Ideal) x0 x1⟩, ⟨S7168x1024, Read.val_main_v23 (F := Ideal) x0 x1⟩, ⟨S6144x1024, Read.val_main_v27 (F := Ideal) x0 x1⟩, ⟨S5632x1024, Read.val_main_v31 (F := Ideal) x0 x1⟩]
theorem runs_shapes (x0 : S66048x1024.Idx → EReal) (x1 : S8x1024x1024.Idx → EReal) : (runs x0 x1).map (·.1) = runShapes := rfl

/-- A row of expert 0's run, read in the concatenation: piece 0 at local row r − 0. -/
theorem concat_at_0 (x0 : S66048x1024.Idx → EReal) (x1 : S8x1024x1024.Idx → EReal) (r : Fin 66048) (q : Fin 1024)
    (hlo : 0 ≤ r.val) (hhi : r.val < 12288) :
    Read.val_main_v32 (F := Ideal) x0 x1 (ix2 r q) = ∑ k : Fin 1024, x0 (ix2 r k) * x1 (ix3 (0 : Fin 8) k q) := by
  unfold Read.val_main_v32
  refine (concatenate_apply_piece (t := S66048x1024) (0 : Fin 2) (runs x0 x1)
      concatenates_S12288x1024_S10240x1024_S9216x1024_S8192x1024_S7168x1024_S7168x1024_S6144x1024_S5632x1024_S66048x1024_d0
      (ix2 r q) 0 (by show 0 < 8; omega) S12288x1024 (Read.val_main_v3 (F := Ideal) x0 x1) rfl rfl 0
      (take_sizes_sum (t := S66048x1024) (0 : Fin 2) (runs x0 x1) runShapes (runs_shapes x0 x1) 0 0 (by decide +kernel))
      (ix2 (⟨r.val - 0, by omega⟩ : Fin 12288) q)
      (fun b hb => by
        match b with
        | ⟨0, _⟩ => exact absurd rfl hb
        | ⟨1, _⟩ => rfl)
      (by show 0 + (r.val - 0) = r.val; omega)).trans ?_
  exact piece_0 x0 x1 r q hlo hhi

/-- A row of expert 1's run, read in the concatenation: piece 1 at local row r − 12288. -/
theorem concat_at_1 (x0 : S66048x1024.Idx → EReal) (x1 : S8x1024x1024.Idx → EReal) (r : Fin 66048) (q : Fin 1024)
    (hlo : 12288 ≤ r.val) (hhi : r.val < 22528) :
    Read.val_main_v32 (F := Ideal) x0 x1 (ix2 r q) = ∑ k : Fin 1024, x0 (ix2 r k) * x1 (ix3 (1 : Fin 8) k q) := by
  unfold Read.val_main_v32
  refine (concatenate_apply_piece (t := S66048x1024) (0 : Fin 2) (runs x0 x1)
      concatenates_S12288x1024_S10240x1024_S9216x1024_S8192x1024_S7168x1024_S7168x1024_S6144x1024_S5632x1024_S66048x1024_d0
      (ix2 r q) 1 (by show 1 < 8; omega) S10240x1024 (Read.val_main_v7 (F := Ideal) x0 x1) rfl rfl 12288
      (take_sizes_sum (t := S66048x1024) (0 : Fin 2) (runs x0 x1) runShapes (runs_shapes x0 x1) 1 12288 (by decide +kernel))
      (ix2 (⟨r.val - 12288, by omega⟩ : Fin 10240) q)
      (fun b hb => by
        match b with
        | ⟨0, _⟩ => exact absurd rfl hb
        | ⟨1, _⟩ => rfl)
      (by show 12288 + (r.val - 12288) = r.val; omega)).trans ?_
  exact piece_1 x0 x1 r q hlo hhi

/-- A row of expert 2's run, read in the concatenation: piece 2 at local row r − 22528. -/
theorem concat_at_2 (x0 : S66048x1024.Idx → EReal) (x1 : S8x1024x1024.Idx → EReal) (r : Fin 66048) (q : Fin 1024)
    (hlo : 22528 ≤ r.val) (hhi : r.val < 31744) :
    Read.val_main_v32 (F := Ideal) x0 x1 (ix2 r q) = ∑ k : Fin 1024, x0 (ix2 r k) * x1 (ix3 (2 : Fin 8) k q) := by
  unfold Read.val_main_v32
  refine (concatenate_apply_piece (t := S66048x1024) (0 : Fin 2) (runs x0 x1)
      concatenates_S12288x1024_S10240x1024_S9216x1024_S8192x1024_S7168x1024_S7168x1024_S6144x1024_S5632x1024_S66048x1024_d0
      (ix2 r q) 2 (by show 2 < 8; omega) S9216x1024 (Read.val_main_v11 (F := Ideal) x0 x1) rfl rfl 22528
      (take_sizes_sum (t := S66048x1024) (0 : Fin 2) (runs x0 x1) runShapes (runs_shapes x0 x1) 2 22528 (by decide +kernel))
      (ix2 (⟨r.val - 22528, by omega⟩ : Fin 9216) q)
      (fun b hb => by
        match b with
        | ⟨0, _⟩ => exact absurd rfl hb
        | ⟨1, _⟩ => rfl)
      (by show 22528 + (r.val - 22528) = r.val; omega)).trans ?_
  exact piece_2 x0 x1 r q hlo hhi

/-- A row of expert 3's run, read in the concatenation: piece 3 at local row r − 31744. -/
theorem concat_at_3 (x0 : S66048x1024.Idx → EReal) (x1 : S8x1024x1024.Idx → EReal) (r : Fin 66048) (q : Fin 1024)
    (hlo : 31744 ≤ r.val) (hhi : r.val < 39936) :
    Read.val_main_v32 (F := Ideal) x0 x1 (ix2 r q) = ∑ k : Fin 1024, x0 (ix2 r k) * x1 (ix3 (3 : Fin 8) k q) := by
  unfold Read.val_main_v32
  refine (concatenate_apply_piece (t := S66048x1024) (0 : Fin 2) (runs x0 x1)
      concatenates_S12288x1024_S10240x1024_S9216x1024_S8192x1024_S7168x1024_S7168x1024_S6144x1024_S5632x1024_S66048x1024_d0
      (ix2 r q) 3 (by show 3 < 8; omega) S8192x1024 (Read.val_main_v15 (F := Ideal) x0 x1) rfl rfl 31744
      (take_sizes_sum (t := S66048x1024) (0 : Fin 2) (runs x0 x1) runShapes (runs_shapes x0 x1) 3 31744 (by decide +kernel))
      (ix2 (⟨r.val - 31744, by omega⟩ : Fin 8192) q)
      (fun b hb => by
        match b with
        | ⟨0, _⟩ => exact absurd rfl hb
        | ⟨1, _⟩ => rfl)
      (by show 31744 + (r.val - 31744) = r.val; omega)).trans ?_
  exact piece_3 x0 x1 r q hlo hhi

/-- A row of expert 4's run, read in the concatenation: piece 4 at local row r − 39936. -/
theorem concat_at_4 (x0 : S66048x1024.Idx → EReal) (x1 : S8x1024x1024.Idx → EReal) (r : Fin 66048) (q : Fin 1024)
    (hlo : 39936 ≤ r.val) (hhi : r.val < 47104) :
    Read.val_main_v32 (F := Ideal) x0 x1 (ix2 r q) = ∑ k : Fin 1024, x0 (ix2 r k) * x1 (ix3 (4 : Fin 8) k q) := by
  unfold Read.val_main_v32
  refine (concatenate_apply_piece (t := S66048x1024) (0 : Fin 2) (runs x0 x1)
      concatenates_S12288x1024_S10240x1024_S9216x1024_S8192x1024_S7168x1024_S7168x1024_S6144x1024_S5632x1024_S66048x1024_d0
      (ix2 r q) 4 (by show 4 < 8; omega) S7168x1024 (Read.val_main_v19 (F := Ideal) x0 x1) rfl rfl 39936
      (take_sizes_sum (t := S66048x1024) (0 : Fin 2) (runs x0 x1) runShapes (runs_shapes x0 x1) 4 39936 (by decide +kernel))
      (ix2 (⟨r.val - 39936, by omega⟩ : Fin 7168) q)
      (fun b hb => by
        match b with
        | ⟨0, _⟩ => exact absurd rfl hb
        | ⟨1, _⟩ => rfl)
      (by show 39936 + (r.val - 39936) = r.val; omega)).trans ?_
  exact piece_4 x0 x1 r q hlo hhi

/-- A row of expert 5's run, read in the concatenation: piece 5 at local row r − 47104. -/
theorem concat_at_5 (x0 : S66048x1024.Idx → EReal) (x1 : S8x1024x1024.Idx → EReal) (r : Fin 66048) (q : Fin 1024)
    (hlo : 47104 ≤ r.val) (hhi : r.val < 54272) :
    Read.val_main_v32 (F := Ideal) x0 x1 (ix2 r q) = ∑ k : Fin 1024, x0 (ix2 r k) * x1 (ix3 (5 : Fin 8) k q) := by
  unfold Read.val_main_v32
  refine (concatenate_apply_piece (t := S66048x1024) (0 : Fin 2) (runs x0 x1)
      concatenates_S12288x1024_S10240x1024_S9216x1024_S8192x1024_S7168x1024_S7168x1024_S6144x1024_S5632x1024_S66048x1024_d0
      (ix2 r q) 5 (by show 5 < 8; omega) S7168x1024 (Read.val_main_v23 (F := Ideal) x0 x1) rfl rfl 47104
      (take_sizes_sum (t := S66048x1024) (0 : Fin 2) (runs x0 x1) runShapes (runs_shapes x0 x1) 5 47104 (by decide +kernel))
      (ix2 (⟨r.val - 47104, by omega⟩ : Fin 7168) q)
      (fun b hb => by
        match b with
        | ⟨0, _⟩ => exact absurd rfl hb
        | ⟨1, _⟩ => rfl)
      (by show 47104 + (r.val - 47104) = r.val; omega)).trans ?_
  exact piece_5 x0 x1 r q hlo hhi

/-- A row of expert 6's run, read in the concatenation: piece 6 at local row r − 54272. -/
theorem concat_at_6 (x0 : S66048x1024.Idx → EReal) (x1 : S8x1024x1024.Idx → EReal) (r : Fin 66048) (q : Fin 1024)
    (hlo : 54272 ≤ r.val) (hhi : r.val < 60416) :
    Read.val_main_v32 (F := Ideal) x0 x1 (ix2 r q) = ∑ k : Fin 1024, x0 (ix2 r k) * x1 (ix3 (6 : Fin 8) k q) := by
  unfold Read.val_main_v32
  refine (concatenate_apply_piece (t := S66048x1024) (0 : Fin 2) (runs x0 x1)
      concatenates_S12288x1024_S10240x1024_S9216x1024_S8192x1024_S7168x1024_S7168x1024_S6144x1024_S5632x1024_S66048x1024_d0
      (ix2 r q) 6 (by show 6 < 8; omega) S6144x1024 (Read.val_main_v27 (F := Ideal) x0 x1) rfl rfl 54272
      (take_sizes_sum (t := S66048x1024) (0 : Fin 2) (runs x0 x1) runShapes (runs_shapes x0 x1) 6 54272 (by decide +kernel))
      (ix2 (⟨r.val - 54272, by omega⟩ : Fin 6144) q)
      (fun b hb => by
        match b with
        | ⟨0, _⟩ => exact absurd rfl hb
        | ⟨1, _⟩ => rfl)
      (by show 54272 + (r.val - 54272) = r.val; omega)).trans ?_
  exact piece_6 x0 x1 r q hlo hhi

/-- A row of expert 7's run, read in the concatenation: piece 7 at local row r − 60416. -/
theorem concat_at_7 (x0 : S66048x1024.Idx → EReal) (x1 : S8x1024x1024.Idx → EReal) (r : Fin 66048) (q : Fin 1024)
    (hlo : 60416 ≤ r.val) (hhi : r.val < 66048) :
    Read.val_main_v32 (F := Ideal) x0 x1 (ix2 r q) = ∑ k : Fin 1024, x0 (ix2 r k) * x1 (ix3 (7 : Fin 8) k q) := by
  unfold Read.val_main_v32
  refine (concatenate_apply_piece (t := S66048x1024) (0 : Fin 2) (runs x0 x1)
      concatenates_S12288x1024_S10240x1024_S9216x1024_S8192x1024_S7168x1024_S7168x1024_S6144x1024_S5632x1024_S66048x1024_d0
      (ix2 r q) 7 (by show 7 < 8; omega) S5632x1024 (Read.val_main_v31 (F := Ideal) x0 x1) rfl rfl 60416
      (take_sizes_sum (t := S66048x1024) (0 : Fin 2) (runs x0 x1) runShapes (runs_shapes x0 x1) 7 60416 (by decide +kernel))
      (ix2 (⟨r.val - 60416, by omega⟩ : Fin 5632) q)
      (fun b hb => by
        match b with
        | ⟨0, _⟩ => exact absurd rfl hb
        | ⟨1, _⟩ => rfl)
      (by show 60416 + (r.val - 60416) = r.val; omega)).trans ?_
  exact piece_7 x0 x1 r q hlo hhi

/-- The reference's result, entry by entry, is G of the two arguments. -/
theorem ref_is_G (x0 : S66048x1024.Idx → EReal) (x1 : S8x1024x1024.Idx → EReal) :
    Read.val_main_v32 (F := Ideal) x0 x1 = G x0 x1 := by
  funext i
  obtain ⟨r, q, rfl⟩ : ∃ (r : Fin 66048) (q : Fin 1024), i = ix2 r q := ⟨i 0, i 1, eq_ix2 i⟩
  rw [G_apply]
  have hr : r.val < 66048 := r.isLt
  by_cases h0 : r.val < 12288
  · have how : owner r.val = (0 : Fin 8) := by unfold owner; rw [if_pos (by omega)]
    rw [concat_at_0 x0 x1 r q (by omega) (by omega), how]
  by_cases h1 : r.val < 22528
  · have how : owner r.val = (1 : Fin 8) := by unfold owner; rw [if_neg (by omega), if_pos (by omega)]
    rw [concat_at_1 x0 x1 r q (by omega) (by omega), how]
  by_cases h2 : r.val < 31744
  · have how : owner r.val = (2 : Fin 8) := by unfold owner; rw [if_neg (by omega), if_neg (by omega), if_pos (by omega)]
    rw [concat_at_2 x0 x1 r q (by omega) (by omega), how]
  by_cases h3 : r.val < 39936
  · have how : owner r.val = (3 : Fin 8) := by unfold owner; rw [if_neg (by omega), if_neg (by omega), if_neg (by omega), if_pos (by omega)]
    rw [concat_at_3 x0 x1 r q (by omega) (by omega), how]
  by_cases h4 : r.val < 47104
  · have how : owner r.val = (4 : Fin 8) := by unfold owner; rw [if_neg (by omega), if_neg (by omega), if_neg (by omega), if_neg (by omega), if_pos (by omega)]
    rw [concat_at_4 x0 x1 r q (by omega) (by omega), how]
  by_cases h5 : r.val < 54272
  · have how : owner r.val = (5 : Fin 8) := by unfold owner; rw [if_neg (by omega), if_neg (by omega), if_neg (by omega), if_neg (by omega), if_neg (by omega), if_pos (by omega)]
    rw [concat_at_5 x0 x1 r q (by omega) (by omega), how]
  by_cases h6 : r.val < 60416
  · have how : owner r.val = (6 : Fin 8) := by unfold owner; rw [if_neg (by omega), if_neg (by omega), if_neg (by omega), if_neg (by omega), if_neg (by omega), if_neg (by omega), if_pos (by omega)]
    rw [concat_at_6 x0 x1 r q (by omega) (by omega), how]
  have how : owner r.val = (7 : Fin 8) := by unfold owner; rw [if_neg (by omega), if_neg (by omega), if_neg (by omega), if_neg (by omega), if_neg (by omega), if_neg (by omega), if_neg (by omega)]
  rw [concat_at_7 x0 x1 r q (by omega) (by omega), how]

end Cert.ReferenceIdeal.RefValue

end
-- ==== Proof.lean ====
/-
  A grouped matrix product on the matrix unit against its plain reference, over the extended reals.

  66048 token rows (1024 columns) are split among eight experts in consecutive runs; row r of the result is row r of
  the tokens times the weight matrix of the expert that owns it. The kernel walks the rows in 65 tiles of 1024 — the
  last one half outside the array —, reads from a 65-entry table which expert owns each tile, multiplies the tile by
  that expert's weights narrowed to bf16 and writes the rows inside the array back. The reference cuts the tokens at the
  experts' offsets, multiplies each run by its weights and lays the products end to end.

  Both are the one function G (SpecGroupedGemm): every offset but the last is a multiple of 1024, so a tile has one
  owner, the one the table lists; at the extended reals the narrowing is the identity and both products are the same
  sum over k; and a row of a product depends on the same row of its left factor only, so the unnamed words below the
  last, half, tile never reach a row that is written back. No law that needs finiteness is used: the precondition
  is never opened.

  The three frames: the two kernels' from the run of the pipeline with the output window's contents left unnamed
  (the token matrix is an input window's array and the f32 weights bypass the region), the reference's from its
  run. The idealization rewrote nothing, so there is nothing to preserve.
-/
import proofs.«176876_j8942121910611_2_alg».proof.Defs
import proofs.«176876_j8942121910611_2_alg».proof.Proof.Gen.Kernel
import proofs.«176876_j8942121910611_2_alg».proof.Proof.Gen.Kernel.Skeleton
import proofs.«176876_j8942121910611_2_alg».proof.Proof.Gen.Kernel.Launch
import proofs.«176876_j8942121910611_2_alg».proof.Proof.Gen.Kernel.Flash
import proofs.«176876_j8942121910611_2_alg».proof.Proof.Gen.KernelIdeal
import proofs.«176876_j8942121910611_2_alg».proof.Proof.Gen.KernelIdeal.Skeleton
import proofs.«176876_j8942121910611_2_alg».proof.Proof.Gen.KernelIdeal.Launch
import proofs.«176876_j8942121910611_2_alg».proof.Proof.Gen.KernelIdeal.Flash
import proofs.«176876_j8942121910611_2_alg».proof.Proof.Gen.ReferenceIdeal
import proofs.«176876_j8942121910611_2_alg».proof.Proof.Gen.Pre_finite_inputs
import proofs.«176876_j8942121910611_2_alg».proof.Proof.Gen.ReferenceIdeal.Run
import proofs.«176876_j8942121910611_2_alg».proof.Proof.Gen.ReferenceIdeal.Read
import proofs.«176876_j8942121910611_2_alg».proof.Proof.DataKernel
import proofs.«176876_j8942121910611_2_alg».proof.Proof.ValueIdeal
import proofs.«176876_j8942121910611_2_alg».proof.Proof.RefIsGroupedGemm
import Idealize.ShloMosaic.Adequacy
import Idealize.ShloMosaic.Init

noncomputable section

namespace Cert.Proof

open Idealize.ShloMosaic Idealize.ShloMosaic.TcCoe Idealize.SL.Sem

/-- The word-level kernel runs to the end without a fault and leaves both arguments as launched. -/
theorem frame_kernel : Cert.frame_Kernel := fun m ρ _ => Cert.Kernel.Hand.frame (F := Bits) m ρ

/-- So does the kernel read over the extended reals. -/
theorem frame_kernelIdeal : Cert.frame_KernelIdeal := fun m ρ _ => Cert.KernelIdeal.Hand.frame (F := Ideal) m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result at G of the arguments. -/
theorem algebraic : Cert.algebraic_KernelIdeal_ReferenceIdeal := by
  intro m ρ m' ρ' _ hagree
  refine ⟨fun c => Cert.GroupedGemm.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.RefValue.ref_is_G, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
